-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S256 .f32) (main_arg9 : FVec F S256x128 .f32) (main_arg10 : FVec F S256x128 .f32) (main_arg11 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S256 .f32) (main_arg6 : FVec F S256 .f32) (main_arg7 : FVec F S256 .f32) (main_arg8 : FVec F S256 .f32) (main_arg9 : FVec F S256x128 .f32) (main_arg10 : FVec F S256x128 .f32) (main_arg11 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x256 .f32) (main_arg3 : FVec F S128x256 .f32) (main_arg4 : FVec F S256 .f32) (main_arg5 : FVec F S256 .f32) (main_arg6 : FVec F S256 .f32) (main_arg7 : FVec F S256 .f32) (main_arg8 : FVec F S256 .f32) (main_arg9 : FVec F S256x128 .f32) (main_arg10 : FVec F S256x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S2000x128 : Shape := ⟨2, ![2000, 128]⟩
abbrev S2000x1 : Shape := ⟨2, ![2000, 1]⟩
abbrev S2000x256 : Shape := ⟨2, ![2000, 256]⟩
abbrev S1x256 : Shape := ⟨2, ![1, 256]⟩
abbrev S1x128 : Shape := ⟨2, ![1, 128]⟩

abbrev nBuf : Space → Nat
  | .hbm => 58
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x128, .f32⟩
  | .hbm, ⟨10, _⟩ => ⟨S256x128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .f32⟩
  | .hbm, ⟨17, _⟩ => ⟨S600000, .f32⟩
  | .hbm, ⟨18, _⟩ => ⟨S_, .f32⟩
  | .hbm, ⟨19, _⟩ => ⟨S50000, .f32⟩
  | .hbm, ⟨20, _⟩ => ⟨S600000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .f32⟩
  | .hbm, ⟨39, _⟩ => ⟨S50000x128, .f32⟩
  | .hbm, ⟨40, _⟩ => ⟨S600000x1, .i32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S600000x1, .i32⟩
  | .hbm, ⟨56, _⟩ => ⟨S50000x128, .f32⟩
  | .hbm, ⟨57, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .f32⟩
  | .local _ .vmem, ⟨7, _⟩ => ⟨S128x256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S256, .f32⟩
  | .local _ .vmem, ⟨13, _⟩ => ⟨S256x128, .f32⟩
  | .local _ .vmem, ⟨14, _⟩ => ⟨S256x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23_0 : Ref sig .tc := ⟨.hbm, 42, rfl⟩
abbrev main_v23_1 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S_S50000x128 : S_.BroadcastsInDim S50000x128 (![] : Fin 0 → Fin S50000x128.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S256x128.size a
  hwx0_10 : ∀ i : grid0.Coords, EltTy.bits .f32 = 32 ∨ (Rect.block (s := S256x128) S256x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x128.size a
  hwx0_11 : ∀ i : grid0.Coords, EltTy.bits .f32 = 32 ∨ (Rect.block (s := S256x128) S256x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S50000x128.size a
  hwx0_13 : ∀ i : grid0.Coords, EltTy.bits .f32 = 32 ∨ (Rect.block (s := S50000x128) S2000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x128.size a ≤ S50000x128.size a
  hwx0_14 : ∀ i : grid0.Coords, EltTy.bits .f32 = 32 ∨ (Rect.block (s := S50000x128) S2000x128.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S256x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S256x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v23_0) S2000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v23_1) S2000x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v33) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x128, .f32⟩
  | .hbm, ⟨10, _⟩ => ⟨S256x128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S_, .f32⟩
  | .hbm, ⟨30, _⟩ => ⟨S600000, .f32⟩
  | .hbm, ⟨31, _⟩ => ⟨S_, .f32⟩
  | .hbm, ⟨32, _⟩ => ⟨S50000, .f32⟩
  | .hbm, ⟨33, _⟩ => ⟨S600000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S1x256, .f32⟩
  | .hbm, ⟨45, _⟩ => ⟨S50000x256, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S1x256, .f32⟩
  | .hbm, ⟨55, _⟩ => ⟨S50000x256, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S50000x256, .f32⟩
  | .hbm, ⟨65, _⟩ => ⟨S50000x256, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x256, .f32⟩
  | .hbm, ⟨75, _⟩ => ⟨S_, .f32⟩
  | .hbm, ⟨76, _⟩ => ⟨S50000x256, .f32⟩
  | .hbm, ⟨77, _⟩ => ⟨S600000x1, .i32⟩
  | .hbm, ⟨78, _⟩ => ⟨S50000x256, .f32⟩
  | .hbm, ⟨79, _⟩ => ⟨S_, .f32⟩
  | .hbm, ⟨80, _⟩ => ⟨S600000, .f32⟩
  | .hbm, ⟨81, _⟩ => ⟨S_, .f32⟩
  | .hbm, ⟨82, _⟩ => ⟨S50000, .f32⟩
  | .hbm, ⟨83, _⟩ => ⟨S600000x1, .i32⟩
  | .hbm, ⟨84, _⟩ => ⟨S50000, .f32⟩
  | .hbm, ⟨85, _⟩ => ⟨S_, .f32⟩
  | .hbm, ⟨86, _⟩ => ⟨S50000, .f32⟩
  | .hbm, ⟨87, _⟩ => ⟨S50000, .f32⟩
  | .hbm, ⟨88, _⟩ => ⟨S50000x1, .f32⟩
  | .hbm, ⟨89, _⟩ => ⟨S50000x256, .f32⟩
  | .hbm, ⟨90, _⟩ => ⟨S50000x256, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_c_5 : Ref sig .tc := ⟨.hbm, 66, rfl⟩
abbrev main_v45 : Ref sig .tc := ⟨.hbm, 67, rfl⟩
abbrev main_v46 : Ref sig .tc := ⟨.hbm, 68, rfl⟩
abbrev main_c_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x128_S50000x128_1_0_0_1_n_n_wf : DotDims.WF S50000x256 S256x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The kernel program's run, with its result array read at the last boundary.

  The program is two regions among two stretches of host operations. Its run is the chain of those four segments; the
  buffers' contents at each boundary fold through it (a host stretch applies its operations; a region leaves in each
  of its arrays what its write-backs leave and nothing else changed). This module restates the chain's conclusion to
  read, beside the argument arrays, the RESULT array at the last boundary's contents.
-/
import proofs.«167639_j48318382080414_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents and
    the argument arrays as launched. -/
theorem run_out : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Out

end
-- ==== Proof.LibKeepdims.lean ====
/-
  Column vectors read at an index: the three layout steps a row reduction with `keepdims` goes through.

  A row reduction of an `[a, b]` array gives a vector `[a]`; `keepdims` views it as a column `[a, 1]`
  (row-major position `i * 1 + 0 = i`), and using it against the `[a, b]` array again broadcasts that
  column along the rows, every entry of row `p` reading the column's entry `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibKeepdims
-- ==== Proof.Rows.lean ====
/-
  One node's rows, as functions of that node's input rows.

  `hrow`: the hidden activation of a node — its (already scaled) aggregated row and its own row, each through a
  `128 × 256` matrix, plus the bias, normalised with the running statistics (`(z − μ) · rsqrt(σ² + ε) · γ + β`) and
  rectified. Whatever the statistics are (`rsqrt` of a non-positive number is `⊤` or `⊥`), the rectified value is
  non-negative: it is a maximum with `0`.
  `prow`: a hidden row through a `256 × 128` matrix.
-/
import Idealize.ShloMosaic.PureOps.Ideal
import Idealize.ShloMosaic.Lib.ValueIdx

noncomputable section

open scoped BigOperators

namespace Cert.Sage

open Idealize.ShloMosaic Idealize.ShloMosaic.ValueIdx

/-- The hidden activation of one node at channel `c`, from its scaled aggregated row `arow` and its own row `xrow`. -/
def hrow (arow xrow : Fin 128 → EReal) (W1l W1r : (⟨2, ![128, 256]⟩ : Shape).Idx → EReal)
    (b1 ga be mu va : (⟨1, ![256]⟩ : Shape).Idx → EReal) (c : Fin 256) : EReal :=
  max ((((((∑ k : Fin 128, arow k * W1l (ix2 k c)) + ∑ k : Fin 128, xrow k * W1r (ix2 k c)) + b1 (ix1 c)) - mu (ix1 c))
      * Ideal.rsqrt (va (ix1 c) + Ideal.ofBits .f32 0x3727C5AC#32)) * ga (ix1 c) + be (ix1 c)) 0

theorem hrow_nonneg (arow xrow : Fin 128 → EReal) (W1l W1r : (⟨2, ![128, 256]⟩ : Shape).Idx → EReal)
    (b1 ga be mu va : (⟨1, ![256]⟩ : Shape).Idx → EReal) (c : Fin 256) :
    0 ≤ hrow arow xrow W1l W1r b1 ga be mu va c := le_max_right _ _

/-- A hidden row through a `256 × 128` matrix, at output channel `j`. -/
def prow (h : Fin 256 → EReal) (W : (⟨2, ![256, 128]⟩ : Shape).Idx → EReal) (j : Fin 128) : EReal :=
  ∑ c : Fin 256, h c * W (ix2 c j)

end Cert.Sage

end
-- ==== Proof.Combine1.lean ====
/-
  The first kernel's two output arrays, as functions of the arrays its region finds.

  The grid has 25 points; point `t` reads rows `2000 t … 2000 t + 1999` of the aggregated features, of the features and
  of the reciprocal-degree column, and every weight array whole. Row `a` of the block is node `n = 2000 t + a`: its
  aggregated row is scaled by the node's reciprocal degree, the hidden activation of the node follows (`hrow`), and the two
  outputs are that hidden row through the two second-layer matrices (`prow`), the second plus the bias. Every entry of
  row `n` of either output depends on row `n` of the inputs only, and the blocks tile the arrays.
-/
import proofs.«167639_j48318382080414_2_alg».proof.Proof.Gen.KernelIdeal.Frame
import Idealize.ShloMosaic.Lib.Pipeline.Value
import Idealize.ShloMosaic.Lib.ValueIdx
import Idealize.ShloMosaic.PureOps.Ideal.Laws
import proofs.«167639_j48318382080414_2_alg».proof.Proof.LibKeepdims
import Idealize.ShloMosaic.Lib.ValueLayout
import proofs.«167639_j48318382080414_2_alg».proof.Proof.Rows

set_option maxRecDepth 16384

noncomputable section

namespace Cert.KernelIdeal.Combine1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The node that row `a` of the `tv`-th block of 2000 rows is. -/
abbrev node (tv : Nat) (ht : tv < 25) (a : Fin 2000) : Fin 50000 := ⟨tv * 2000 + a.val, by have := a.isLt; omega⟩

theorem idx0_0 : ∀ t : Fin cfg0.N, win0_0.index t (0 : Fin 2) = t.val ∧ win0_0.index t (1 : Fin 2) = 0 :=
  (by decide +kernel : ∀ t : Fin grid0.N, _)

theorem idx0_1 : ∀ t : Fin cfg0.N, win0_1.index t (0 : Fin 2) = t.val ∧ win0_1.index t (1 : Fin 2) = 0 :=
  (by decide +kernel : ∀ t : Fin grid0.N, _)

theorem idx0_2 : ∀ t : Fin cfg0.N, win0_2.index t (0 : Fin 2) = t.val ∧ win0_2.index t (1 : Fin 2) = 0 :=
  (by decide +kernel : ∀ t : Fin grid0.N, _)

theorem idx0_13 : ∀ t : Fin cfg0.N, win0_13.index t (0 : Fin 2) = t.val ∧ win0_13.index t (1 : Fin 2) = 0 :=
  (by decide +kernel : ∀ t : Fin grid0.N, _)

theorem idx0_14 : ∀ t : Fin cfg0.N, win0_14.index t (0 : Fin 2) = t.val ∧ win0_14.index t (1 : Fin 2) = 0 :=
  (by decide +kernel : ∀ t : Fin grid0.N, _)

theorem idx0_3 : ∀ t : Fin cfg0.N, win0_3.index t (0 : Fin 2) = 0 ∧ win0_3.index t (1 : Fin 2) = 0 :=
  (by decide +kernel : ∀ t : Fin grid0.N, _)

theorem idx0_4 : ∀ t : Fin cfg0.N, win0_4.index t (0 : Fin 2) = 0 ∧ win0_4.index t (1 : Fin 2) = 0 :=
  (by decide +kernel : ∀ t : Fin grid0.N, _)

theorem idx0_10 : ∀ t : Fin cfg0.N, win0_10.index t (0 : Fin 2) = 0 ∧ win0_10.index t (1 : Fin 2) = 0 :=
  (by decide +kernel : ∀ t : Fin grid0.N, _)

theorem idx0_11 : ∀ t : Fin cfg0.N, win0_11.index t (0 : Fin 2) = 0 ∧ win0_11.index t (1 : Fin 2) = 0 :=
  (by decide +kernel : ∀ t : Fin grid0.N, _)

theorem idx0_5 : ∀ t : Fin cfg0.N, win0_5.index t (0 : Fin 1) = 0 :=
  (by decide +kernel : ∀ t : Fin grid0.N, _)

theorem idx0_6 : ∀ t : Fin cfg0.N, win0_6.index t (0 : Fin 1) = 0 :=
  (by decide +kernel : ∀ t : Fin grid0.N, _)

theorem idx0_7 : ∀ t : Fin cfg0.N, win0_7.index t (0 : Fin 1) = 0 :=
  (by decide +kernel : ∀ t : Fin grid0.N, _)

theorem idx0_8 : ∀ t : Fin cfg0.N, win0_8.index t (0 : Fin 1) = 0 :=
  (by decide +kernel : ∀ t : Fin grid0.N, _)

theorem idx0_9 : ∀ t : Fin cfg0.N, win0_9.index t (0 : Fin 1) = 0 :=
  (by decide +kernel : ∀ t : Fin grid0.N, _)

theorem idx0_12 : ∀ t : Fin cfg0.N, win0_12.index t (0 : Fin 1) = 0 :=
  (by decide +kernel : ∀ t : Fin grid0.N, _)

/-- Window 0's block at point `t` is rows `2000 t … 2000 t + 1999` of its array. -/
theorem iblk0_0_apply (c : Dev nD) (t : Fin cfg0.N) (ht : t.val < 25) (a : Fin 2000) (k : Fin 128) :
    iblk0 V c 0 t (ix2 a k) = V c main_v22 (ix2 (node t.val ht a) k) := by
  show V c main_v22 (((cfg0.win 0).blk t).view.emb (ix2 a k)) = _
  congr 1
  funext d; apply Fin.ext
  obtain ⟨e0, e1⟩ := idx0_0 t
  match d with
  | ⟨0, _⟩ => show win0_0.index t (0 : Fin 2) * 2000 + 1 * a.val = t.val * 2000 + a.val; omega
  | ⟨1, _⟩ => show win0_0.index t (1 : Fin 2) * 128 + 1 * k.val = k.val; omega

/-- Window 1's block at point `t` is rows `2000 t … 2000 t + 1999` of its array. -/
theorem iblk0_1_apply (c : Dev nD) (t : Fin cfg0.N) (ht : t.val < 25) (a : Fin 2000) (k : Fin 128) :
    iblk0 V c 1 t (ix2 a k) = V c main_arg0 (ix2 (node t.val ht a) k) := by
  show V c main_arg0 (((cfg0.win 1).blk t).view.emb (ix2 a k)) = _
  congr 1
  funext d; apply Fin.ext
  obtain ⟨e0, e1⟩ := idx0_1 t
  match d with
  | ⟨0, _⟩ => show win0_1.index t (0 : Fin 2) * 2000 + 1 * a.val = t.val * 2000 + a.val; omega
  | ⟨1, _⟩ => show win0_1.index t (1 : Fin 2) * 128 + 1 * k.val = k.val; omega

/-- Window 2's block at point `t` is rows `2000 t … 2000 t + 1999` of its array. -/
theorem iblk0_2_apply (c : Dev nD) (t : Fin cfg0.N) (ht : t.val < 25) (a : Fin 2000) (k : Fin 1) :
    iblk0 V c 2 t (ix2 a k) = V c main_v12 (ix2 (node t.val ht a) k) := by
  show V c main_v12 (((cfg0.win 2).blk t).view.emb (ix2 a k)) = _
  congr 1
  funext d; apply Fin.ext
  obtain ⟨e0, e1⟩ := idx0_2 t
  match d with
  | ⟨0, _⟩ => show win0_2.index t (0 : Fin 2) * 2000 + 1 * a.val = t.val * 2000 + a.val; omega
  | ⟨1, _⟩ => show win0_2.index t (1 : Fin 2) * 1 + 1 * k.val = k.val; omega

/-- Window 3's block is its whole array at every point. -/
theorem iblk0_3_eq (c : Dev nD) (t : Fin cfg0.N) : iblk0 V c 3 t = V c main_arg2 := by
  funext y
  show V c main_arg2 (((cfg0.win 3).blk t).view.emb y) = _
  congr 1
  funext d; apply Fin.ext
  obtain ⟨e0, e1⟩ := idx0_3 t
  match d with
  | ⟨0, _⟩ => show win0_3.index t (0 : Fin 2) * 128 + 1 * (y 0).val = (y 0).val; omega
  | ⟨1, _⟩ => show win0_3.index t (1 : Fin 2) * 256 + 1 * (y 1).val = (y 1).val; omega

/-- Window 4's block is its whole array at every point. -/
theorem iblk0_4_eq (c : Dev nD) (t : Fin cfg0.N) : iblk0 V c 4 t = V c main_arg3 := by
  funext y
  show V c main_arg3 (((cfg0.win 4).blk t).view.emb y) = _
  congr 1
  funext d; apply Fin.ext
  obtain ⟨e0, e1⟩ := idx0_4 t
  match d with
  | ⟨0, _⟩ => show win0_4.index t (0 : Fin 2) * 128 + 1 * (y 0).val = (y 0).val; omega
  | ⟨1, _⟩ => show win0_4.index t (1 : Fin 2) * 256 + 1 * (y 1).val = (y 1).val; omega

/-- Window 5's block is its whole array at every point. -/
theorem iblk0_5_eq (c : Dev nD) (t : Fin cfg0.N) : iblk0 V c 5 t = V c main_arg4 := by
  funext y
  show V c main_arg4 (((cfg0.win 5).blk t).view.emb y) = _
  congr 1
  funext d; apply Fin.ext
  have e0 := idx0_5 t
  match d with
  | ⟨0, _⟩ => show win0_5.index t (0 : Fin 1) * 256 + 1 * (y 0).val = (y 0).val; omega

/-- Window 6's block is its whole array at every point. -/
theorem iblk0_6_eq (c : Dev nD) (t : Fin cfg0.N) : iblk0 V c 6 t = V c main_arg5 := by
  funext y
  show V c main_arg5 (((cfg0.win 6).blk t).view.emb y) = _
  congr 1
  funext d; apply Fin.ext
  have e0 := idx0_6 t
  match d with
  | ⟨0, _⟩ => show win0_6.index t (0 : Fin 1) * 256 + 1 * (y 0).val = (y 0).val; omega

/-- Window 7's block is its whole array at every point. -/
theorem iblk0_7_eq (c : Dev nD) (t : Fin cfg0.N) : iblk0 V c 7 t = V c main_arg6 := by
  funext y
  show V c main_arg6 (((cfg0.win 7).blk t).view.emb y) = _
  congr 1
  funext d; apply Fin.ext
  have e0 := idx0_7 t
  match d with
  | ⟨0, _⟩ => show win0_7.index t (0 : Fin 1) * 256 + 1 * (y 0).val = (y 0).val; omega

/-- Window 8's block is its whole array at every point. -/
theorem iblk0_8_eq (c : Dev nD) (t : Fin cfg0.N) : iblk0 V c 8 t = V c main_arg7 := by
  funext y
  show V c main_arg7 (((cfg0.win 8).blk t).view.emb y) = _
  congr 1
  funext d; apply Fin.ext
  have e0 := idx0_8 t
  match d with
  | ⟨0, _⟩ => show win0_8.index t (0 : Fin 1) * 256 + 1 * (y 0).val = (y 0).val; omega

/-- Window 9's block is its whole array at every point. -/
theorem iblk0_9_eq (c : Dev nD) (t : Fin cfg0.N) : iblk0 V c 9 t = V c main_arg8 := by
  funext y
  show V c main_arg8 (((cfg0.win 9).blk t).view.emb y) = _
  congr 1
  funext d; apply Fin.ext
  have e0 := idx0_9 t
  match d with
  | ⟨0, _⟩ => show win0_9.index t (0 : Fin 1) * 256 + 1 * (y 0).val = (y 0).val; omega

/-- Window 10's block is its whole array at every point. -/
theorem iblk0_10_eq (c : Dev nD) (t : Fin cfg0.N) : iblk0 V c 10 t = V c main_arg9 := by
  funext y
  show V c main_arg9 (((cfg0.win 10).blk t).view.emb y) = _
  congr 1
  funext d; apply Fin.ext
  obtain ⟨e0, e1⟩ := idx0_10 t
  match d with
  | ⟨0, _⟩ => show win0_10.index t (0 : Fin 2) * 256 + 1 * (y 0).val = (y 0).val; omega
  | ⟨1, _⟩ => show win0_10.index t (1 : Fin 2) * 128 + 1 * (y 1).val = (y 1).val; omega

/-- Window 11's block is its whole array at every point. -/
theorem iblk0_11_eq (c : Dev nD) (t : Fin cfg0.N) : iblk0 V c 11 t = V c main_arg10 := by
  funext y
  show V c main_arg10 (((cfg0.win 11).blk t).view.emb y) = _
  congr 1
  funext d; apply Fin.ext
  obtain ⟨e0, e1⟩ := idx0_11 t
  match d with
  | ⟨0, _⟩ => show win0_11.index t (0 : Fin 2) * 256 + 1 * (y 0).val = (y 0).val; omega
  | ⟨1, _⟩ => show win0_11.index t (1 : Fin 2) * 128 + 1 * (y 1).val = (y 1).val; omega

/-- Window 12's block is its whole array at every point. -/
theorem iblk0_12_eq (c : Dev nD) (t : Fin cfg0.N) : iblk0 V c 12 t = V c main_arg11 := by
  funext y
  show V c main_arg11 (((cfg0.win 12).blk t).view.emb y) = _
  congr 1
  funext d; apply Fin.ext
  have e0 := idx0_12 t
  match d with
  | ⟨0, _⟩ => show win0_12.index t (0 : Fin 1) * 128 + 1 * (y 0).val = (y 0).val; omega

theorem dotA_l0 (i : (⟨2, ![2000, 256]⟩ : Shape).Idx) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem dotA_l1 (i : (⟨2, ![2000, 256]⟩ : Shape).Idx) (q : dot_S2000x128_S128x256_S2000x256_1_0_0_1_n_n.contr.Idx) : (dot_S2000x128_S128x256_S2000x256_1_0_0_1_n_n.lhsIdx i q 1).val = (q ⟨0, by decide⟩).val :=
  dot_S2000x128_S128x256_S2000x256_1_0_0_1_n_n.lhsIdx_val_of_single rfl i q
theorem dotA_r0 (i : (⟨2, ![2000, 256]⟩ : Shape).Idx) (q : dot_S2000x128_S128x256_S2000x256_1_0_0_1_n_n.contr.Idx) : (dot_S2000x128_S128x256_S2000x256_1_0_0_1_n_n.rhsIdx i q 0).val = (q ⟨0, by decide⟩).val :=
  dot_S2000x128_S128x256_S2000x256_1_0_0_1_n_n.rhsIdx_val_of_single rfl i q
theorem dotA_r1 (i : (⟨2, ![2000, 256]⟩ : Shape).Idx) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl
/-- The matrix product into a zero accumulator, at entry `(a, b)`: the sum over `k` of row `a` times column `b`. -/
theorem dotA_apply {φ₁ φ₂ : FTy} (l : FVec Ideal S2000x128 φ₁) (r : FVec Ideal S128x256 φ₂) (a : Fin 2000) (b : Fin 256) :
    matmul dot_S2000x128_S128x256_S2000x256_1_0_0_1_n_n none l r (constant (⟨2, ![2000, 256]⟩ : Shape) .f32 0x00000000#32) (ix2 a b)
      = ∑ k : Fin 128, l (ix2 a k) * r (ix2 k b) := by
  show FloatOps.matmul dot_S2000x128_S128x256_S2000x256_1_0_0_1_n_n none l r (constant (⟨2, ![2000, 256]⟩ : Shape) .f32 0x00000000#32) (ix2 a b) = _
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 a b) ((contrEquiv1 dot_S2000x128_S128x256_S2000x256_1_0_0_1_n_n 128 rfl rfl).symm k) = ix2 a k := funext fun d => Fin.ext (by
    match d with
    | ⟨0, _⟩ => exact dotA_l0 _ _
    | ⟨1, _⟩ => exact (dotA_l1 _ _).trans hk)
  have er : dot_S2000x128_S128x256_S2000x256_1_0_0_1_n_n.rhsIdx (ix2 a b) ((contrEquiv1 dot_S2000x128_S128x256_S2000x256_1_0_0_1_n_n 128 rfl rfl).symm k) = ix2 k b := funext fun d => Fin.ext (by
    match d with
    | ⟨0, _⟩ => exact (dotA_r0 _ _).trans hk
    | ⟨1, _⟩ => exact dotA_r1 _ _)
  rw [el, er]

theorem dotB_l0 (i : (⟨2, ![2000, 128]⟩ : Shape).Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem dotB_l1 (i : (⟨2, ![2000, 128]⟩ : Shape).Idx) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem dotB_r0 (i : (⟨2, ![2000, 128]⟩ : Shape).Idx) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem dotB_r1 (i : (⟨2, ![2000, 128]⟩ : Shape).Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl
/-- The matrix product into a zero accumulator, at entry `(a, b)`: the sum over `k` of row `a` times column `b`. -/
theorem dotB_apply {φ₁ φ₂ : FTy} (l : FVec Ideal S2000x256 φ₁) (r : FVec Ideal S256x128 φ₂) (a : Fin 2000) (b : Fin 128) :
    matmul dot_S2000x256_S256x128_S2000x128_1_0_0_1_n_n none l r (constant (⟨2, ![2000, 128]⟩ : Shape) .f32 0x00000000#32) (ix2 a b)
      = ∑ k : Fin 256, l (ix2 a k) * r (ix2 k b) := by
  show FloatOps.matmul dot_S2000x256_S256x128_S2000x128_1_0_0_1_n_n none l r (constant (⟨2, ![2000, 128]⟩ : Shape) .f32 0x00000000#32) (ix2 a b) = _
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 a b) ((contrEquiv1 dot_S2000x256_S256x128_S2000x128_1_0_0_1_n_n 256 rfl rfl).symm k) = ix2 a k := funext fun d => Fin.ext (by
    match d with
    | ⟨0, _⟩ => exact dotB_l0 _ _
    | ⟨1, _⟩ => exact (dotB_l1 _ _).trans hk)
  have er : dot_S2000x256_S256x128_S2000x128_1_0_0_1_n_n.rhsIdx (ix2 a b) ((contrEquiv1 dot_S2000x256_S256x128_S2000x128_1_0_0_1_n_n 256 rfl rfl).symm k) = ix2 k b := funext fun d => Fin.ext (by
    match d with
    | ⟨0, _⟩ => exact (dotB_r0 _ _).trans hk
    | ⟨1, _⟩ => exact dotB_r1 _ _)
  rw [el, er]

open Cert.Sage

/-- A vector viewed as a row and repeated down the rows reads, at `(a, c)`, its entry `c`. -/
theorem rowBcast256 (v : Vec Ideal S256 .f32) (a : Fin 2000) (c : Fin 256) :
    broadcastTo S2000x256 (shapeCast S1x256 v shapeCasts_S256_S1x256) broadcasts_S1x256_S2000x256 (ix2 a c) = v (ix1 c) := by
  rw [broadcastTo_1b_ab_apply, shapeCast_a_1a_apply]
theorem rowBcast128 (v : Vec Ideal S128 .f32) (a : Fin 2000) (c : Fin 128) :
    broadcastTo S2000x128 (shapeCast S1x128 v shapeCasts_S128_S1x128) broadcasts_S1x128_S2000x128 (ix2 a c) = v (ix1 c) := by
  rw [broadcastTo_1b_ab_apply, shapeCast_a_1a_apply]

/-- The rectified hidden block at entry `(a, c)`: `hrow` of row `a` of the loaded blocks. -/
theorem hidden_apply (x2 : Vec Ideal S2000x1 .f32) (x0 x1 : Vec Ideal S2000x128 .f32) (x3 x4 : Vec Ideal S128x256 .f32)
    (x5 x9 x8 x6 x7 : Vec Ideal S256 .f32) (a : Fin 2000) (c : Fin 256) :
    k0_pay1 (F := Ideal) (k0_pay4 x2 x0 x1 x3 x4 x5 x9 x8 x6 x7) k0_pay5 (ix2 a c)
      = hrow (fun k => x0 (ix2 a k) * x2 (ix2 a (0 : Fin 1))) (fun k => x1 (ix2 a k)) x3 x4 x5 x6 x7 x8 x9 c := by
  unfold k0_pay1 k0_pay4 k0_pay5 hrow
  dsimp only
  simp only [truncf_apply, maximumf_apply, addf_apply, mulf_apply, subf_apply, broadcast_apply]
  rw [dotA_apply, dotA_apply, rowBcast256, rowBcast256, rowBcast256, rowBcast256, rowBcast256]
  simp only [Ideal.ofBits_def, Ideal.ofBits_zero_f32, truncf_apply, mulf_apply, shapeCast_self,
    Cert.LibKeepdims.broadcastTo_a1_ab_apply]
  rfl

/-- The first output's payload at entry `(a, j)`: the hidden row through the left second-layer matrix. -/
theorem p_apply (h : FVec Ideal S2000x256 .bf16) (x10 : Vec Ideal S256x128 .f32) (a : Fin 2000) (j : Fin 128) :
    matmul dot_S2000x256_S256x128_S2000x128_1_0_0_1_n_n none h (truncf .bf16 x10 bitsLt_bf16_f32)
      (constant S2000x128 .f32 0x00000000#32) (ix2 a j) = prow (fun c => h (ix2 a c)) x10 j := by
  rw [dotB_apply]; rfl

/-- The first output's payload at entry `(a, j)`: the rectified hidden row `a` through the left second-layer matrix. -/
theorem pay2_apply (v38 v39 : FVec Ideal S2000x256 .f32) (x10 : Vec Ideal S256x128 .f32) (a : Fin 2000) (j : Fin 128) :
    k0_pay2 (F := Ideal) v38 v39 x10 (ix2 a j) = prow (fun c => k0_pay1 (F := Ideal) v38 v39 (ix2 a c)) x10 j := by
  unfold k0_pay2
  exact p_apply _ _ _ _

/-- The second output's payload at entry `(a, j)`: the same row through the right matrix, plus the bias. -/
theorem pay3_apply (v38 v39 : FVec Ideal S2000x256 .f32) (x11 : Vec Ideal S256x128 .f32) (x12 : Vec Ideal S128 .f32)
    (a : Fin 2000) (j : Fin 128) :
    k0_pay3 (F := Ideal) v38 v39 x11 x12 (ix2 a j)
      = prow (fun c => k0_pay1 (F := Ideal) v38 v39 (ix2 a c)) x11 j + x12 (ix1 j) := by
  unfold k0_pay3
  simp only [addf_apply]
  rw [p_apply, rowBcast128]

/-- The hidden activation of node `n`, from row `n` of the aggregated features (scaled by the node's reciprocal degree)
    and of the features. -/
def H (A0 A1 : S50000x128.Idx → EReal) (A2 : S50000x1.Idx → EReal) (A3 A4 : S128x256.Idx → EReal)
    (A5 A6 A7 A8 A9 : S256.Idx → EReal) (n : Fin 50000) : Fin 256 → EReal :=
  hrow (fun k => A0 (ix2 n k) * A2 (ix2 n (0 : Fin 1))) (fun k => A1 (ix2 n k)) A3 A4 A5 A6 A7 A8 A9

/-- What the region leaves in its first output array: each node's hidden row through the left second-layer matrix. -/
def GP (A0 A1 : S50000x128.Idx → EReal) (A2 : S50000x1.Idx → EReal) (A3 A4 : S128x256.Idx → EReal)
    (A5 A6 A7 A8 A9 : S256.Idx → EReal) (A10 : S256x128.Idx → EReal) : S50000x128.Idx → EReal :=
  fun i => prow (H A0 A1 A2 A3 A4 A5 A6 A7 A8 A9 (i 0)) A10 (i 1)

/-- What it leaves in its second: the same row through the right matrix, plus the bias. -/
def GR (A0 A1 : S50000x128.Idx → EReal) (A2 : S50000x1.Idx → EReal) (A3 A4 : S128x256.Idx → EReal)
    (A5 A6 A7 A8 A9 : S256.Idx → EReal) (A11 : S256x128.Idx → EReal) (A12 : S128.Idx → EReal) : S50000x128.Idx → EReal :=
  fun i => prow (H A0 A1 A2 A3 A4 A5 A6 A7 A8 A9 (i 0)) A11 (i 1) + A12 (ix1 (i 1))

/-- An index of the array is in point `t`'s block iff each coordinate is in the block's range on its axis. -/
theorem mem_blk0_13 (t : Fin cfg0.N) (i : S50000x128.Idx) :
    i ∈ ((cfg0.win 13).blk t).view.set ↔ ∀ a : Fin 2, win0_13.index t a * S2000x128.size a ≤ (i a).val ∧ (i a).val < win0_13.index t a * S2000x128.size a + S2000x128.size a := by
  show i ∈ ((View.whole main_v23_0).slice (win0_13.rect t)).set ↔ _
  rw [View.set_slice_whole, Rect.mem_set_unit]
  exact Iff.rfl

/-- Every row is in the block of the point `row / 2000`: the 25 blocks tile the array. -/
theorem covered0_13 (i : S50000x128.Idx) :
    ∃ t : Fin cfg0.N, (cfg0.win 13).flush t = true ∧ i ∈ ((cfg0.win 13).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  refine ⟨t, flush0_13 t, ?_⟩
  rw [mem_blk0_13]
  obtain ⟨e0, e1⟩ := idx0_13 t
  have tv : t.val = (i 0).val / 2000 := rfl
  intro a
  match a with
  | ⟨0, _⟩ => show win0_13.index t (0 : Fin 2) * 2000 ≤ (i 0).val ∧ (i 0).val < win0_13.index t (0 : Fin 2) * 2000 + 2000; omega
  | ⟨1, _⟩ => show win0_13.index t (1 : Fin 2) * 128 ≤ (i 1).val ∧ (i 1).val < win0_13.index t (1 : Fin 2) * 128 + 128; omega

/-- The array index that entry `(a, j)` of point `t`'s block is. -/
theorem emb0_13 (t : Fin cfg0.N) (ht : t.val < 25) (a : Fin 2000) (j : Fin 128) :
    ((cfg0.win 13).blk t).view.emb (ix2 a j) = ix2 (node t.val ht a) j := by
  funext d; apply Fin.ext
  obtain ⟨e0, e1⟩ := idx0_13 t
  match d with
  | ⟨0, _⟩ => show win0_13.index t (0 : Fin 2) * 2000 + 1 * a.val = t.val * 2000 + a.val; omega
  | ⟨1, _⟩ => show win0_13.index t (1 : Fin 2) * 128 + 1 * j.val = j.val; omega

/-- An index of the array is in point `t`'s block iff each coordinate is in the block's range on its axis. -/
theorem mem_blk0_14 (t : Fin cfg0.N) (i : S50000x128.Idx) :
    i ∈ ((cfg0.win 14).blk t).view.set ↔ ∀ a : Fin 2, win0_14.index t a * S2000x128.size a ≤ (i a).val ∧ (i a).val < win0_14.index t a * S2000x128.size a + S2000x128.size a := by
  show i ∈ ((View.whole main_v23_1).slice (win0_14.rect t)).set ↔ _
  rw [View.set_slice_whole, Rect.mem_set_unit]
  exact Iff.rfl

/-- Every row is in the block of the point `row / 2000`: the 25 blocks tile the array. -/
theorem covered0_14 (i : S50000x128.Idx) :
    ∃ t : Fin cfg0.N, (cfg0.win 14).flush t = true ∧ i ∈ ((cfg0.win 14).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  refine ⟨t, flush0_14 t, ?_⟩
  rw [mem_blk0_14]
  obtain ⟨e0, e1⟩ := idx0_14 t
  have tv : t.val = (i 0).val / 2000 := rfl
  intro a
  match a with
  | ⟨0, _⟩ => show win0_14.index t (0 : Fin 2) * 2000 ≤ (i 0).val ∧ (i 0).val < win0_14.index t (0 : Fin 2) * 2000 + 2000; omega
  | ⟨1, _⟩ => show win0_14.index t (1 : Fin 2) * 128 ≤ (i 1).val ∧ (i 1).val < win0_14.index t (1 : Fin 2) * 128 + 128; omega

/-- The array index that entry `(a, j)` of point `t`'s block is. -/
theorem emb0_14 (t : Fin cfg0.N) (ht : t.val < 25) (a : Fin 2000) (j : Fin 128) :
    ((cfg0.win 14).blk t).view.emb (ix2 a j) = ix2 (node t.val ht a) j := by
  funext d; apply Fin.ext
  obtain ⟨e0, e1⟩ := idx0_14 t
  match d with
  | ⟨0, _⟩ => show win0_14.index t (0 : Fin 2) * 2000 + 1 * a.val = t.val * 2000 + a.val; omega
  | ⟨1, _⟩ => show win0_14.index t (1 : Fin 2) * 128 + 1 * j.val = j.val; omega

/-- The rectified hidden block of point `t` at entry `(a, c)` is the hidden activation of node `2000 t + a`. -/
theorem hidden_blk (c : Dev nD) (t : Fin cfg0.N) (ht : t.val < 25) (a : Fin 2000) (c' : Fin 256) :
    k0_pay1 (F := Ideal) (k0_pay4 (iblk0 V c 2 t) (iblk0 V c 0 t) (iblk0 V c 1 t) (V c main_arg2) (V c main_arg3) (V c main_arg4)
        (V c main_arg8) (V c main_arg7) (V c main_arg5) (V c main_arg6)) k0_pay5 (ix2 a c')
      = H (V c main_v22) (V c main_arg0) (V c main_v12) (V c main_arg2) (V c main_arg3) (V c main_arg4) (V c main_arg5)
          (V c main_arg6) (V c main_arg7) (V c main_arg8) (node t.val ht a) c' := by
  rw [hidden_apply]
  unfold H
  congr 1
  · funext k; rw [iblk0_0_apply V c t ht, iblk0_2_apply V c t ht]
  · funext k; rw [iblk0_1_apply V c t ht]

/-- WHAT POINT `t` WRITES BACK to the first output is block `t` of `GP` of the arrays as the region finds them. -/
theorem flushedP_eq (c : Dev nD) (t : Fin cfg0.N) :
    (dat0 V c).flushed 13 t = ((cfg0.win 13).blk t).view.read (Elt Ideal)
      (GP (V c main_v22) (V c main_arg0) (V c main_v12) (V c main_arg2) (V c main_arg3) (V c main_arg4) (V c main_arg5)
        (V c main_arg6) (V c main_arg7) (V c main_arg8) (V c main_arg9)) := by
  have ht : t.val < 25 := lt_of_lt_of_eq t.isLt N_0
  show (cfg0.win 13).cut (grid0.coords t) ((dat0 V c).after 13 t) = _
  rw [after0_13]
  unfold out0_13
  rw [View.canon_unit_zero hz2]
  simp only [View.ld_unit_zero (S := S2000x128) hz2, View.ld_unit_zero (S := S2000x1) hz2, View.ld_unit_zero (S := S128x256) hz2,
    View.ld_unit_zero (S := S256) hz1, View.ld_unit_zero (S := S256x128) hz2]
  rw [iblk0_3_eq V c t, iblk0_4_eq V c t, iblk0_5_eq V c t, iblk0_6_eq V c t, iblk0_7_eq V c t, iblk0_8_eq V c t,
    iblk0_9_eq V c t, iblk0_10_eq V c t]
  funext y
  obtain ⟨a, j, rfl⟩ : ∃ (a : Fin 2000) (j : Fin 128), y = ix2 a j := ⟨y 0, y 1, eq_ix2 y⟩
  show k0_pay2 (F := Ideal) (k0_pay4 (iblk0 V c 2 t) (iblk0 V c 0 t) (iblk0 V c 1 t) (V c main_arg2) (V c main_arg3) (V c main_arg4)
        (V c main_arg8) (V c main_arg7) (V c main_arg5) (V c main_arg6)) k0_pay5 (V c main_arg9) (ix2 a j)
    = GP (V c main_v22) (V c main_arg0) (V c main_v12) (V c main_arg2) (V c main_arg3) (V c main_arg4) (V c main_arg5)
        (V c main_arg6) (V c main_arg7) (V c main_arg8) (V c main_arg9) (((cfg0.win 13).blk t).view.emb (ix2 a j))
  rw [pay2_apply, emb0_13 t ht a j]
  exact congrArg (fun h => prow h (V c main_arg9) j) (funext fun c' => hidden_blk V c t ht a c')

/-- WHAT POINT `t` WRITES BACK to the second output is block `t` of `GR`. -/
theorem flushedR_eq (c : Dev nD) (t : Fin cfg0.N) :
    (dat0 V c).flushed 14 t = ((cfg0.win 14).blk t).view.read (Elt Ideal)
      (GR (V c main_v22) (V c main_arg0) (V c main_v12) (V c main_arg2) (V c main_arg3) (V c main_arg4) (V c main_arg5)
        (V c main_arg6) (V c main_arg7) (V c main_arg8) (V c main_arg10) (V c main_arg11)) := by
  have ht : t.val < 25 := lt_of_lt_of_eq t.isLt N_0
  show (cfg0.win 14).cut (grid0.coords t) ((dat0 V c).after 14 t) = _
  rw [after0_14]
  unfold out0_14
  rw [View.canon_unit_zero hz2]
  simp only [View.ld_unit_zero (S := S2000x128) hz2, View.ld_unit_zero (S := S2000x1) hz2, View.ld_unit_zero (S := S128x256) hz2,
    View.ld_unit_zero (S := S256) hz1, View.ld_unit_zero (S := S256x128) hz2, View.ld_unit_zero (S := S128) hz1]
  rw [iblk0_3_eq V c t, iblk0_4_eq V c t, iblk0_5_eq V c t, iblk0_6_eq V c t, iblk0_7_eq V c t, iblk0_8_eq V c t,
    iblk0_9_eq V c t, iblk0_11_eq V c t, iblk0_12_eq V c t]
  funext y
  obtain ⟨a, j, rfl⟩ : ∃ (a : Fin 2000) (j : Fin 128), y = ix2 a j := ⟨y 0, y 1, eq_ix2 y⟩
  show k0_pay3 (F := Ideal) (k0_pay4 (iblk0 V c 2 t) (iblk0 V c 0 t) (iblk0 V c 1 t) (V c main_arg2) (V c main_arg3) (V c main_arg4)
        (V c main_arg8) (V c main_arg7) (V c main_arg5) (V c main_arg6)) k0_pay5 (V c main_arg10) (V c main_arg11) (ix2 a j)
    = GR (V c main_v22) (V c main_arg0) (V c main_v12) (V c main_arg2) (V c main_arg3) (V c main_arg4) (V c main_arg5)
        (V c main_arg6) (V c main_arg7) (V c main_arg8) (V c main_arg10) (V c main_arg11) (((cfg0.win 14).blk t).view.emb (ix2 a j))
  rw [pay3_apply, emb0_14 t ht a j]
  exact congrArg (fun h => prow h (V c main_arg10) j + V c main_arg11 (ix1 j)) (funext fun c' => hidden_blk V c t ht a c')

/-- THE FIRST OUTPUT ARRAY after the region. -/
theorem finalP (c : Dev nD) :
    (dat0 V c).arrAt 13 cfg0.N = GP (V c main_v22) (V c main_arg0) (V c main_v12) (V c main_arg2) (V c main_arg3)
      (V c main_arg4) (V c main_arg5) (V c main_arg6) (V c main_arg7) (V c main_arg8) (V c main_arg9) :=
  (dat0 V c).arrAt_eq_of_cover 13 _ (fun t _ => flushedP_eq V c t) covered0_13

/-- THE SECOND OUTPUT ARRAY after the region. -/
theorem finalR (c : Dev nD) :
    (dat0 V c).arrAt 14 cfg0.N = GR (V c main_v22) (V c main_arg0) (V c main_v12) (V c main_arg2) (V c main_arg3)
      (V c main_arg4) (V c main_arg5) (V c main_arg6) (V c main_arg7) (V c main_arg8) (V c main_arg10) (V c main_arg11) :=
  (dat0 V c).arrAt_eq_of_cover 14 _ (fun t _ => flushedR_eq V c t) covered0_14

end Cert.KernelIdeal.Combine1

end
-- ==== Proof.Combine2.lean ====
/-
  The second kernel's output array, as one function of the arrays its region finds.

  The grid has 25 points; point `t` reads rows `2000 t … 2000 t + 1999` of the aggregated projection, of the right
  branch and of the reciprocal-degree column, and writes the same rows of the output: entry `(n, j)` is the
  aggregate's `(n, j)` times the reciprocal degree of node `n`, plus the right branch's `(n, j)`. The blocks tile the
  array, so it ends holding that function everywhere.
-/
import proofs.«167639_j48318382080414_2_alg».proof.Proof.Gen.KernelIdeal.Frame
import Idealize.ShloMosaic.Lib.Pipeline.Value
import Idealize.ShloMosaic.Lib.ValueIdx
import Idealize.ShloMosaic.PureOps.Ideal.Laws
import proofs.«167639_j48318382080414_2_alg».proof.Proof.LibKeepdims

set_option maxRecDepth 16384

noncomputable section

namespace Cert.KernelIdeal.Combine2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The node that row `a` of the `tv`-th block of 2000 rows is. -/
abbrev node (tv : Nat) (ht : tv < 25) (a : Fin 2000) : Fin 50000 := ⟨tv * 2000 + a.val, by have := a.isLt; omega⟩

theorem idx1_0 : ∀ t : Fin cfg1.N, win1_0.index t (0 : Fin 2) = t.val ∧ win1_0.index t (1 : Fin 2) = 0 :=
  (by decide +kernel : ∀ t : Fin grid1.N, _)

theorem idx1_1 : ∀ t : Fin cfg1.N, win1_1.index t (0 : Fin 2) = t.val ∧ win1_1.index t (1 : Fin 2) = 0 :=
  (by decide +kernel : ∀ t : Fin grid1.N, _)

theorem idx1_2 : ∀ t : Fin cfg1.N, win1_2.index t (0 : Fin 2) = t.val ∧ win1_2.index t (1 : Fin 2) = 0 :=
  (by decide +kernel : ∀ t : Fin grid1.N, _)

theorem idx1_3 : ∀ t : Fin cfg1.N, win1_3.index t (0 : Fin 2) = t.val ∧ win1_3.index t (1 : Fin 2) = 0 :=
  (by decide +kernel : ∀ t : Fin grid1.N, _)

/-- Window 0's block at point `t` is rows `2000 t … 2000 t + 1999` of its array. -/
theorem iblk1_0_apply (c : Dev nD) (t : Fin cfg1.N) (ht : t.val < 25) (a : Fin 2000) (k : Fin 128) :
    iblk1 V c 0 t (ix2 a k) = V c main_v33 (ix2 (node t.val ht a) k) := by
  show V c main_v33 (((cfg1.win 0).blk t).view.emb (ix2 a k)) = _
  congr 1
  funext d; apply Fin.ext
  obtain ⟨e0, e1⟩ := idx1_0 t
  match d with
  | ⟨0, _⟩ => show win1_0.index t (0 : Fin 2) * 2000 + 1 * a.val = t.val * 2000 + a.val; omega
  | ⟨1, _⟩ => show win1_0.index t (1 : Fin 2) * 128 + 1 * k.val = k.val; omega

/-- Window 1's block at point `t` is rows `2000 t … 2000 t + 1999` of its array. -/
theorem iblk1_1_apply (c : Dev nD) (t : Fin cfg1.N) (ht : t.val < 25) (a : Fin 2000) (k : Fin 128) :
    iblk1 V c 1 t (ix2 a k) = V c main_v23_1 (ix2 (node t.val ht a) k) := by
  show V c main_v23_1 (((cfg1.win 1).blk t).view.emb (ix2 a k)) = _
  congr 1
  funext d; apply Fin.ext
  obtain ⟨e0, e1⟩ := idx1_1 t
  match d with
  | ⟨0, _⟩ => show win1_1.index t (0 : Fin 2) * 2000 + 1 * a.val = t.val * 2000 + a.val; omega
  | ⟨1, _⟩ => show win1_1.index t (1 : Fin 2) * 128 + 1 * k.val = k.val; omega

/-- Window 2's block at point `t` is rows `2000 t … 2000 t + 1999` of its array. -/
theorem iblk1_2_apply (c : Dev nD) (t : Fin cfg1.N) (ht : t.val < 25) (a : Fin 2000) (k : Fin 1) :
    iblk1 V c 2 t (ix2 a k) = V c main_v12 (ix2 (node t.val ht a) k) := by
  show V c main_v12 (((cfg1.win 2).blk t).view.emb (ix2 a k)) = _
  congr 1
  funext d; apply Fin.ext
  obtain ⟨e0, e1⟩ := idx1_2 t
  match d with
  | ⟨0, _⟩ => show win1_2.index t (0 : Fin 2) * 2000 + 1 * a.val = t.val * 2000 + a.val; omega
  | ⟨1, _⟩ => show win1_2.index t (1 : Fin 2) * 1 + 1 * k.val = k.val; omega

/-- An index of the array is in point `t`'s block iff each coordinate is in the block's range on its axis. -/
theorem mem_blk1_3 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v34).slice (win1_3.rect t)).set ↔ _
  rw [View.set_slice_whole, Rect.mem_set_unit]
  exact Iff.rfl

/-- Every row is in the block of the point `row / 2000`: the 25 blocks tile the array. -/
theorem covered1_3 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  refine ⟨t, flush1_3 t, ?_⟩
  rw [mem_blk1_3]
  obtain ⟨e0, e1⟩ := idx1_3 t
  have tv : t.val = (i 0).val / 2000 := rfl
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The array index that entry `(a, j)` of point `t`'s block is. -/
theorem emb1_3 (t : Fin cfg1.N) (ht : t.val < 25) (a : Fin 2000) (j : Fin 128) :
    ((cfg1.win 3).blk t).view.emb (ix2 a j) = ix2 (node t.val ht a) j := by
  funext d; apply Fin.ext
  obtain ⟨e0, e1⟩ := idx1_3 t
  match d with
  | ⟨0, _⟩ => show win1_3.index t (0 : Fin 2) * 2000 + 1 * a.val = t.val * 2000 + a.val; omega
  | ⟨1, _⟩ => show win1_3.index t (1 : Fin 2) * 128 + 1 * j.val = j.val; omega

/-- What the region leaves in its output array: the scaled aggregate plus the right branch, entry by entry. -/
def G (a0 a1 : S50000x128.Idx → EReal) (a2 : S50000x1.Idx → EReal) : S50000x128.Idx → EReal :=
  fun i => a0 i * a2 (ix2 (i 0) (0 : Fin 1)) + a1 i

/-- The body's result at entry `(a, j)` of a block, from its loaded blocks. -/
theorem pay_apply (x0 x1 : Vec Ideal S2000x128 .f32) (x2 : Vec Ideal S2000x1 .f32) (a : Fin 2000) (j : Fin 128) :
    k1_pay1 (F := Ideal) x0 x2 x1 (ix2 a j) = x0 (ix2 a j) * x2 (ix2 a (0 : Fin 1)) + x1 (ix2 a j) := by
  unfold k1_pay1
  show shapeCast S2000x128 x0 shapeCasts_S2000x128_S2000x128 (ix2 a j)
      * broadcastTo S2000x128 (shapeCast S2000x1 x2 shapeCasts_S2000x1_S2000x1) broadcasts_S2000x1_S2000x128 (ix2 a j)
      + shapeCast S2000x128 x1 shapeCasts_S2000x128_S2000x128 (ix2 a j) = _
  rw [Cert.LibKeepdims.broadcastTo_a1_ab_apply, shapeCast_self, shapeCast_self, shapeCast_self]

/-- WHAT POINT `t` WRITES BACK is block `t` of `G` of the arrays as the region finds them. -/
theorem flushed_eq (c : Dev nD) (t : Fin cfg1.N) :
    (dat1 V c).flushed 3 t = ((cfg1.win 3).blk t).view.read (Elt Ideal) (G (V c main_v33) (V c main_v23_1) (V c main_v12)) := by
  have ht : t.val < 25 := lt_of_lt_of_eq t.isLt N_1
  show (cfg1.win 3).cut (grid1.coords t) ((dat1 V c).after 3 t) = _
  rw [after1_3]
  unfold out1_3
  rw [View.canon_unit_zero hz2]
  simp only [View.ld_unit_zero (S := S2000x128) hz2, View.ld_unit_zero (S := S2000x1) hz2]
  funext y
  obtain ⟨a, j, rfl⟩ : ∃ (a : Fin 2000) (j : Fin 128), y = ix2 a j := ⟨y 0, y 1, eq_ix2 y⟩
  show k1_pay1 (F := Ideal) (iblk1 V c 0 t) (iblk1 V c 2 t) (iblk1 V c 1 t) (ix2 a j)
    = G (V c main_v33) (V c main_v23_1) (V c main_v12) (((cfg1.win 3).blk t).view.emb (ix2 a j))
  rw [pay_apply, emb1_3 t ht a j, iblk1_0_apply V c t ht, iblk1_1_apply V c t ht, iblk1_2_apply V c t ht]
  rfl

/-- THE OUTPUT ARRAY after the region: `G` of the arrays the region finds. -/
theorem final (c : Dev nD) :
    (dat1 V c).arrAt 3 cfg1.N = G (V c main_v33) (V c main_v23_1) (V c main_v12) :=
  (dat1 V c).arrAt_eq_of_cover 3 _ (fun t _ => flushed_eq V c t) covered1_3

end Cert.KernelIdeal.Combine2

end
-- ==== Proof.KernelValue.lean ====
/-
  The kernel program's result, as one function of its arguments.

  Reading the run backwards from the result array: the second region leaves `aggregate · (1/deg) + right branch`
  (Combine2) of what the second host stretch computed — the row gather and scatter-add of the first region's left output over
  the edges — and of the first region's right output and the reciprocal-degree column; the first region leaves its two
  outputs (Combine1) of what the first host stretch computed: the aggregated features (gather and scatter-add over the
  edges), the reciprocal of the clamped in-degree as a column, and the arguments themselves. The host stretches are the
  same operations the reference program applies, so they are named by the reference's stage functions.
-/
import proofs.«167639_j48318382080414_2_alg».proof.Proof.KernelRun
import proofs.«167639_j48318382080414_2_alg».proof.Proof.Combine1
import proofs.«167639_j48318382080414_2_alg».proof.Proof.Combine2
import proofs.«167639_j48318382080414_2_alg».proof.Proof.Gen.ReferenceIdeal.Read
import Idealize.ShloMosaic.Lib.StableHlo.Run

set_option maxRecDepth 16384

noncomputable section

namespace Cert.KernelIdeal.Out

open Cert.KernelIdeal Cert.KernelIdeal.Gen
open Idealize.ShloMosaic Idealize.ShloMosaic.TcCoe Idealize.SL.Sem Idealize.ShloMosaic.StableHlo
open Idealize.ShloMosaic.Pipeline (Dat)

section Host

variable {F : FTy → Type} [FloatOps F]
variable (m : (ℓ : Loc nD τ sig) → Buf (Elt F) ℓ) (ρ : Dev nD → PrngReg)

/-- The reciprocal of the clamped in-degree, as a column. -/
def dinvCol (x1 : (⟨S2x600000, .i32⟩ : BufTy).Contents (Elt F)) : (⟨S50000x1, .f32⟩ : BufTy).Contents (Elt F) :=
  shapeCast _ (Host.divf (Cert.ReferenceIdeal.Read.val_main_v18 (F := F)) (Cert.ReferenceIdeal.Read.val_main_v19 (F := F) x1)) shapeCasts_S50000_S50000x1

/-- Rows of `P` gathered at the edges' sources and summed into the edges' destinations. -/
def aggRows (P : (⟨S50000x128, .f32⟩ : BufTy).Contents (Elt F)) (x1 : (⟨S2x600000, .i32⟩ : BufTy).Contents (Elt F)) :
    (⟨S50000x128, .f32⟩ : BufTy).Contents (Elt F) :=
  Host.scatterAdd scatter_S50000x128_S600000x1_S600000x128_1_0_0_1 (Cert.ReferenceIdeal.Read.val_main_v11 (F := F)) (Cert.ReferenceIdeal.Read.val_main_v12 (F := F) x1)
    (Host.gather gather_S50000x128_S600000x1_S600000x128_1_0_n_n_0_1_1128 P (Cert.ReferenceIdeal.Read.val_main_v9 (F := F) x1))

/-! ### The first host stretch -/

set_option maxHeartbeats 4000000 in
theorem V1_v22 (c : Dev nD) : V1 m ρ c main_v22 = aggRows (F := F) (m ((c : Thread nD τ).loc main_arg0)) (m ((c : Thread nD τ).loc main_arg1)) := by
  show StableHlo.after hostOps0 (W0 m ρ c) (Proc.devRef .tc main_v22) = _
  after_results
  rfl

theorem V1_v12 (c : Dev nD) : V1 m ρ c main_v12 = dinvCol (F := F) (m ((c : Thread nD τ).loc main_arg1)) := by
  show StableHlo.after hostOps0 (W0 m ρ c) (Proc.devRef .tc main_v12) = _
  after_results
  rfl

theorem W1_v1 (c : Dev nD) : W1 m ρ c (Proc.devRef .tc main_v1) = Cert.ReferenceIdeal.Read.val_main_v1 (F := F) (m ((c : Thread nD τ).loc main_arg1)) := by
  show StableHlo.after hostOps0 (W0 m ρ c) (Proc.devRef .tc main_v1) = _
  after_results
  rfl

theorem W1_v3 (c : Dev nD) : W1 m ρ c (Proc.devRef .tc main_v3) = Cert.ReferenceIdeal.Read.val_main_v3 (F := F) (m ((c : Thread nD τ).loc main_arg1)) := by
  show StableHlo.after hostOps0 (W0 m ρ c) (Proc.devRef .tc main_v3) = _
  after_results
  rfl

theorem V1_arg0 (c : Dev nD) : V1 m ρ c main_arg0 = m ((c : Thread nD τ).loc main_arg0) := by
  show StableHlo.after hostOps0 (W0 m ρ c) (Proc.devRef .tc main_arg0) = _
  after_results

theorem V1_arg2 (c : Dev nD) : V1 m ρ c main_arg2 = m ((c : Thread nD τ).loc main_arg2) := by
  show StableHlo.after hostOps0 (W0 m ρ c) (Proc.devRef .tc main_arg2) = _
  after_results

theorem V1_arg3 (c : Dev nD) : V1 m ρ c main_arg3 = m ((c : Thread nD τ).loc main_arg3) := by
  show StableHlo.after hostOps0 (W0 m ρ c) (Proc.devRef .tc main_arg3) = _
  after_results

theorem V1_arg4 (c : Dev nD) : V1 m ρ c main_arg4 = m ((c : Thread nD τ).loc main_arg4) := by
  show StableHlo.after hostOps0 (W0 m ρ c) (Proc.devRef .tc main_arg4) = _
  after_results

theorem V1_arg5 (c : Dev nD) : V1 m ρ c main_arg5 = m ((c : Thread nD τ).loc main_arg5) := by
  show StableHlo.after hostOps0 (W0 m ρ c) (Proc.devRef .tc main_arg5) = _
  after_results

theorem V1_arg6 (c : Dev nD) : V1 m ρ c main_arg6 = m ((c : Thread nD τ).loc main_arg6) := by
  show StableHlo.after hostOps0 (W0 m ρ c) (Proc.devRef .tc main_arg6) = _
  after_results

theorem V1_arg7 (c : Dev nD) : V1 m ρ c main_arg7 = m ((c : Thread nD τ).loc main_arg7) := by
  show StableHlo.after hostOps0 (W0 m ρ c) (Proc.devRef .tc main_arg7) = _
  after_results

theorem V1_arg8 (c : Dev nD) : V1 m ρ c main_arg8 = m ((c : Thread nD τ).loc main_arg8) := by
  show StableHlo.after hostOps0 (W0 m ρ c) (Proc.devRef .tc main_arg8) = _
  after_results

theorem V1_arg9 (c : Dev nD) : V1 m ρ c main_arg9 = m ((c : Thread nD τ).loc main_arg9) := by
  show StableHlo.after hostOps0 (W0 m ρ c) (Proc.devRef .tc main_arg9) = _
  after_results

theorem V1_arg10 (c : Dev nD) : V1 m ρ c main_arg10 = m ((c : Thread nD τ).loc main_arg10) := by
  show StableHlo.after hostOps0 (W0 m ρ c) (Proc.devRef .tc main_arg10) = _
  after_results

theorem V1_arg11 (c : Dev nD) : V1 m ρ c main_arg11 = m ((c : Thread nD τ).loc main_arg11) := by
  show StableHlo.after hostOps0 (W0 m ρ c) (Proc.devRef .tc main_arg11) = _
  after_results

/-! ### The second host stretch, from the first region's exit -/

set_option maxHeartbeats 4000000 in
theorem V3_v33 (c : Dev nD) : V3 m ρ c main_v33
    = aggRows (F := F) (W2 m ρ c (Proc.devRef .tc main_v23_0)) (m ((c : Thread nD τ).loc main_arg1)) := by
  show StableHlo.after hostOps1 (W2 m ρ c) (Proc.devRef .tc main_v33) = _
  after_results
  rw [W2_of_ne m ρ c main_v1 (by decide), W2_of_ne m ρ c main_v3 (by decide), W1_v1, W1_v3]
  rfl

theorem V3_v23_1 (c : Dev nD) : V3 m ρ c main_v23_1 = W2 m ρ c (Proc.devRef .tc main_v23_1) := by
  show StableHlo.after hostOps1 (W2 m ρ c) (Proc.devRef .tc main_v23_1) = _
  after_results

theorem V3_v12 (c : Dev nD) : V3 m ρ c main_v12 = dinvCol (F := F) (m ((c : Thread nD τ).loc main_arg1)) := by
  show StableHlo.after hostOps1 (W2 m ρ c) (Proc.devRef .tc main_v12) = _
  after_results
  exact ((W2_arr m ρ c 2).trans (((dat0 (V1 m ρ) c).arrAt_in 2 rfl _).trans (A_eq0 (V1 m ρ) c 2))).trans (V1_v12 m ρ c)

end Host

/-! ### The result at the ideal instance -/

variable (m : (ℓ : Loc nD τ sig) → Buf (Elt Ideal) ℓ) (ρ : Dev nD → PrngReg)

/-- THE KERNEL PROGRAM'S RESULT as a function of its twelve arguments. -/
def KOut (x0 : S50000x128.Idx → EReal) (x1 : (⟨S2x600000, .i32⟩ : BufTy).Contents (Elt Ideal)) (x2 x3 : S128x256.Idx → EReal)
    (x4 x5 x6 x7 x8 : S256.Idx → EReal) (x9 x10 : S256x128.Idx → EReal) (x11 : S128.Idx → EReal) : S50000x128.Idx → EReal :=
  Combine2.G
    (aggRows (F := Ideal) (Combine1.GP (aggRows (F := Ideal) x0 x1) x0 (dinvCol (F := Ideal) x1) x2 x3 x4 x5 x6 x7 x8 x9) x1)
    (Combine1.GR (aggRows (F := Ideal) x0 x1) x0 (dinvCol (F := Ideal) x1) x2 x3 x4 x5 x6 x7 x8 x10 x11)
    (dinvCol (F := Ideal) x1)

theorem W2_v23_0 (c : Dev nD) : W2 m ρ c (Proc.devRef .tc main_v23_0)
    = Combine1.GP (aggRows (F := Ideal) (m ((c : Thread nD τ).loc main_arg0)) (m ((c : Thread nD τ).loc main_arg1))) (m ((c : Thread nD τ).loc main_arg0)) (dinvCol (F := Ideal) (m ((c : Thread nD τ).loc main_arg1)))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W2_arr m ρ c 13).trans ((Combine1.finalP (V1 m ρ) c).trans ?_)
  rw [V1_v22, V1_v12, V1_arg0, V1_arg2, V1_arg3, V1_arg4, V1_arg5, V1_arg6, V1_arg7, V1_arg8, V1_arg9]

theorem W2_v23_1 (c : Dev nD) : W2 m ρ c (Proc.devRef .tc main_v23_1)
    = Combine1.GR (aggRows (F := Ideal) (m ((c : Thread nD τ).loc main_arg0)) (m ((c : Thread nD τ).loc main_arg1))) (m ((c : Thread nD τ).loc main_arg0)) (dinvCol (F := Ideal) (m ((c : Thread nD τ).loc main_arg1)))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) := by
  refine (W2_arr m ρ c 14).trans ((Combine1.finalR (V1 m ρ) c).trans ?_)
  rw [V1_v22, V1_v12, V1_arg0, V1_arg2, V1_arg3, V1_arg4, V1_arg5, V1_arg6, V1_arg7, V1_arg8, V1_arg10, V1_arg11]

/-- The result array at the last boundary is `KOut` of the arguments as launched. -/
theorem value (c : Dev nD) : W4 m ρ c (Proc.devRef .tc main_v34) = KOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 3).trans ((Combine2.final (V3 m ρ) c).trans ?_)
  rw [V3_v33, V3_v23_1, V3_v12, W2_v23_0, W2_v23_1]
  rfl

/-- THE RUN, READ: every weakly fair execution terminates with the result array at `KOut` of the arguments and the
    arguments unchanged. -/
theorem run : θ_run defs (onTc (τ := τ) (main (F := Ideal))) ⟨m, fun _ => 0, ρ⟩ (fun r => ∀ c : Dev nD,
      r.2.mem ((c.tc : Thread nD τ).loc main_v34) = KOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (value m ρ c), (h c).2⟩) (run_out m ρ)

end Cert.KernelIdeal.Out

end
-- ==== Proof.LibRowIndexing.lean ====
/-
  Rows picked by an integer column, read at an index.

  Three of StableHLO's indexed operations in the forms that `x[idx]` and `segment_sum` over the rows of a matrix lower to,
  each read at ONE index, for literal extents `N` (rows of the operand), `L` (number of picks) and `C` (row length):

  * `gather_rows_apply`  — the gather of whole rows of an `[N, C]` operand at an `[L, 1]` column of start indices:
    element `(l, c)` of the result is the operand at row `clamp (idx[l, 0])`, column `c`, the start index read signed and
    clamped into `[0, N − 1]`;
  * `gather_elems_apply` — the same for a flat `[N]` operand: element `l` is the operand at `clamp (idx[l, 0])`;
  * `scatter_rows_resultIdx` — where update element `(l, c)` of a row scatter into an `[N, C]` operand lands: if it lands on
    `i` at all then `idx[l, 0]`, read signed and NOT clamped, is `i`'s row and `c` is `i`'s column.
-/
import Idealize.ShloMosaic.PureOps.Ideal
import Idealize.ShloMosaic.Lib.ValueIdx

noncomputable section

namespace Idealize.ShloMosaic.RowIndexing

open Idealize.ShloMosaic Idealize.ShloMosaic.ValueIdx

/-- The start-indices index `[l, 0]` of pick `l`. -/
abbrev pickIdx {L : Nat} (l : Fin L) : (⟨2, ![L, 1]⟩ : Shape).Idx := ix2 l (⟨0, Nat.one_pos⟩ : Fin 1)

section Gather
variable {α : Type}

/-- The dimension numbers of a gather of whole rows: operand `[N, C]`, start indices `[L, 1]`, result `[L, C]`. -/
abbrev rowsDims (N L C : Nat)
    (wf : GatherDims.WF ⟨2, ![N, C]⟩ ⟨2, ![L, 1]⟩ ⟨2, ![L, C]⟩ [1] [0] [] [0] [] 1 ![1, C]) :
    GatherDims ⟨2, ![N, C]⟩ ⟨2, ![L, 1]⟩ ⟨2, ![L, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(l, c)`: the operand at row `idx[l, 0]`, read signed and clamped into `[0, N − 1]`, column `c`. -/
theorem gather_rows_apply {N L C w : Nat} (hN : 0 < N)
    (wf : GatherDims.WF ⟨2, ![N, C]⟩ ⟨2, ![L, 1]⟩ ⟨2, ![L, C]⟩ [1] [0] [] [0] [] 1 ![1, C])
    (x : (⟨2, ![N, C]⟩ : Shape).Idx → α) (idx : IVec ⟨2, ![L, 1]⟩ w) (y : (⟨2, ![L, C]⟩ : Shape).Idx) :
    Host.gather (rowsDims N L C wf) x idx y
      = x (ix2 (⟨min (idx (pickIdx (y 0))).toInt.toNat (N - 1), by omega⟩ : Fin N) (y 1)) := by
  unfold Host.gather
  congr 1
  funext a
  refine Fin.ext ?_
  match a with
  | ⟨0, _⟩ =>
    show (rowsDims N L C wf).start y idx 0 + (rowsDims N L C wf).batchCoord y 0 + (rowsDims N L C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N L C wf).startIndexMap from List.mem_singleton.mpr rfl)]
    have hsi : (rowsDims N L C wf).siIdx y ⟨List.idxOf (0 : Fin 2) (rowsDims N L C wf).startIndexMap,
        List.idxOf_lt_length_iff.2 (List.mem_singleton.mpr rfl)⟩ = pickIdx (y 0) := by
      funext b; refine Fin.ext ?_
      match b with
      | ⟨0, _⟩ => rfl
      | ⟨1, _⟩ => rfl
    rw [hsi]
    rfl
  | ⟨1, _⟩ =>
    show (rowsDims N L C wf).start y idx 1 + (rowsDims N L C wf).batchCoord y 1 + (rowsDims N L C wf).offCoord y 1 = (y 1).val
    rw [GatherDims.batchCoord_eq_zero _ _ _ List.not_mem_nil]
    have hs : (rowsDims N L C wf).start y idx 1 = 0 := by
      unfold GatherDims.start
      exact dif_neg (show (1 : Fin 2) ∉ ([0] : List (Fin 2)) by decide)
    rw [hs]
    simp only [Nat.zero_add, Nat.add_zero]
    unfold GatherDims.offCoord
    rw [dif_pos ((GatherDims.mem_sKept (rowsDims N L C wf) 1).mpr
      ⟨(show (1 : Fin 2) ∉ ([0] : List (Fin 2)) by decide), List.not_mem_nil⟩)]
    rfl

/-- The dimension numbers of a gather of single elements: operand `[N]`, start indices `[L, 1]`, result `[L]`. -/
abbrev elemsDims (N L : Nat)
    (wf : GatherDims.WF ⟨1, ![N]⟩ ⟨2, ![L, 1]⟩ ⟨1, ![L]⟩ [] [0] [] [0] [] 1 ![1]) :
    GatherDims ⟨1, ![N]⟩ ⟨2, ![L, 1]⟩ ⟨1, ![L]⟩ where
  offsetDims := []
  collapsedSliceDims := [0]
  operandBatchingDims := []
  startIndicesBatchingDims := []
  startIndexMap := [0]
  indexVectorDim := 1
  sliceSizes := ![1]
  wf := wf

/-- THE ELEMENT GATHER READ AT `l`: the operand at `idx[l, 0]`, read signed and clamped into `[0, N − 1]`. -/
theorem gather_elems_apply {N L w : Nat} (hN : 0 < N)
    (wf : GatherDims.WF ⟨1, ![N]⟩ ⟨2, ![L, 1]⟩ ⟨1, ![L]⟩ [] [0] [] [0] [] 1 ![1])
    (x : (⟨1, ![N]⟩ : Shape).Idx → α) (idx : IVec ⟨2, ![L, 1]⟩ w) (y : (⟨1, ![L]⟩ : Shape).Idx) :
    Host.gather (elemsDims N L wf) x idx y
      = x (ix1 (⟨min (idx (pickIdx (y 0))).toInt.toNat (N - 1), by omega⟩ : Fin N)) := by
  unfold Host.gather
  congr 1
  funext a
  obtain rfl : a = 0 := Subsingleton.elim _ _
  refine Fin.ext ?_
  show (elemsDims N L wf).start y idx 0 + (elemsDims N L wf).batchCoord y 0 + (elemsDims N L wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemsDims N L wf).startIndexMap from List.mem_singleton.mpr rfl)]
  have hsi : (elemsDims N L wf).siIdx y ⟨List.idxOf (0 : Fin 1) (elemsDims N L wf).startIndexMap,
      List.idxOf_lt_length_iff.2 (List.mem_singleton.mpr rfl)⟩ = pickIdx (y 0) := by
    funext b; refine Fin.ext ?_
    match b with
    | ⟨0, _⟩ => rfl
    | ⟨1, _⟩ => rfl
  rw [hsi]
  rfl

end Gather

section Scatter

/-- The dimension numbers of a scatter of whole rows: operand `[N, C]`, scatter indices `[L, 1]`, updates `[L, C]`. -/
abbrev rowsScatter (N L C : Nat)
    (wf : ScatterDims.WF ⟨2, ![N, C]⟩ ⟨2, ![L, 1]⟩ ⟨2, ![L, C]⟩ [1] [0] [0] 1) :
    ScatterDims ⟨2, ![N, C]⟩ ⟨2, ![L, 1]⟩ ⟨2, ![L, C]⟩ where
  updateWindowDims := [1]
  insertedWindowDims := [0]
  scatterDimsToOperandDims := [0]
  indexVectorDim := 1
  wf := wf

/-- WHERE AN UPDATE ELEMENT LANDS: if update element `(l, c)` lands on `i`, then `idx[l, 0]` read signed is `i`'s row and
    `c` is `i`'s column. -/
theorem scatter_rows_resultIdx {N L C w : Nat}
    (wf : ScatterDims.WF ⟨2, ![N, C]⟩ ⟨2, ![L, 1]⟩ ⟨2, ![L, C]⟩ [1] [0] [0] 1)
    (idx : IVec ⟨2, ![L, 1]⟩ w) (j : (⟨2, ![L, C]⟩ : Shape).Idx) (i : (⟨2, ![N, C]⟩ : Shape).Idx)
    (h : (rowsScatter N L C wf).resultIdx? j idx = some i) :
    (idx (pickIdx (j 0))).toInt = ((i 0).val : Int) ∧ (j 1).val = (i 1).val := by
  have s0 : (rowsScatter N L C wf).start j idx 0 = (idx (pickIdx (j 0))).toInt := by
    unfold ScatterDims.start
    rw [dif_pos (show (0 : Fin 2) ∈ (rowsScatter N L C wf).scatterDimsToOperandDims from List.mem_singleton.mpr rfl)]
    have hsi : (rowsScatter N L C wf).siIdx j ⟨List.idxOf (0 : Fin 2) (rowsScatter N L C wf).scatterDimsToOperandDims,
        List.idxOf_lt_length_iff.2 (List.mem_singleton.mpr rfl)⟩ = pickIdx (j 0) := by
      funext b; refine Fin.ext ?_
      match b with
      | ⟨0, _⟩ => rfl
      | ⟨1, _⟩ => rfl
    rw [hsi]
    rfl
  have k0 : (0 : Fin 2) ∉ (rowsScatter N L C wf).sKept := by
    simp [ScatterDims.sKept, Shape.kept, List.mem_filter, List.mem_finRange]
  have k1 : (1 : Fin 2) ∈ (rowsScatter N L C wf).sKept := by
    simp [ScatterDims.sKept, Shape.kept, List.mem_filter, List.mem_finRange]
  have w0 : (rowsScatter N L C wf).window j 0 = 0 := by
    unfold ScatterDims.window
    exact dif_neg k0
  have s1 : (rowsScatter N L C wf).start j idx 1 = 0 := by
    unfold ScatterDims.start
    exact dif_neg (show (1 : Fin 2) ∉ ([0] : List (Fin 2)) by decide)
  have w1 : (rowsScatter N L C wf).window j 1 = (j 1).val := by
    unfold ScatterDims.window
    rw [dif_pos k1]
    rfl
  unfold ScatterDims.resultIdx? at h
  split at h
  · rename_i hall
    have hi := Option.some.inj h
    have h0 := hall 0
    have h1 := hall 1
    have e0 : (i 0).val = ((rowsScatter N L C wf).start j idx 0 + ((rowsScatter N L C wf).window j 0 : Int)).toNat := by
      rw [← hi]
    have e1 : (i 1).val = ((rowsScatter N L C wf).start j idx 1 + ((rowsScatter N L C wf).window j 1 : Int)).toNat := by
      rw [← hi]
    rw [s0, w0] at e0 h0
    rw [s1, w1] at e1 h1
    constructor <;> omega
  · exact absurd h (by simp)

end Scatter

end Idealize.ShloMosaic.RowIndexing

end
-- ==== Proof.RowOps.lean ====
/-
  A scatter-add of rows read at an index, as a sum over the picks.

  Update element `(l, c)` of a row scatter into an `[N, C]` operand lands on `(n, c')` exactly when the scatter index
  `idx[l, 0]`, read signed, is `n` and `c = c'`. So the accumulated element `(n, c)` is the operand's plus the sum, over
  the picks `l` whose index is `n`, of update `(l, c)`: a sum over the edges into node `n`, the same set for every
  column and for every row length `C`.
-/
import Idealize.ShloMosaic.PureOps.Ideal
import Idealize.ShloMosaic.Lib.ValueIdx
import proofs.«167639_j48318382080414_2_alg».proof.Proof.LibRowIndexing

noncomputable section

open scoped BigOperators

namespace Cert.Sage

open Idealize.ShloMosaic Idealize.ShloMosaic.ValueIdx Idealize.ShloMosaic.RowIndexing

/-- If the scatter index of pick `l`, read signed, is the row `n`, update element `(l, c)` lands on `(n, c)`. -/
theorem scatter_rows_lands {N L C w : Nat}
    (wf : ScatterDims.WF ⟨2, ![N, C]⟩ ⟨2, ![L, 1]⟩ ⟨2, ![L, C]⟩ [1] [0] [0] 1)
    (idx : IVec ⟨2, ![L, 1]⟩ w) (l : Fin L) (c : Fin C) (n : Fin N)
    (h : (idx (pickIdx l)).toInt = (n.val : Int)) :
    (rowsScatter N L C wf).resultIdx? (ix2 l c) idx = some (ix2 n c) := by
  have s0 : (rowsScatter N L C wf).start (ix2 l c) idx 0 = (idx (pickIdx l)).toInt := by
    unfold ScatterDims.start
    rw [dif_pos (show (0 : Fin 2) ∈ (rowsScatter N L C wf).scatterDimsToOperandDims from List.mem_singleton.mpr rfl)]
    have hsi : (rowsScatter N L C wf).siIdx (ix2 l c) ⟨List.idxOf (0 : Fin 2) (rowsScatter N L C wf).scatterDimsToOperandDims,
        List.idxOf_lt_length_iff.2 (List.mem_singleton.mpr rfl)⟩ = pickIdx l := by
      funext b; refine Fin.ext ?_
      match b with
      | ⟨0, _⟩ => rfl
      | ⟨1, _⟩ => rfl
    rw [hsi]
  have k0 : (0 : Fin 2) ∉ (rowsScatter N L C wf).sKept := by
    simp [ScatterDims.sKept, Shape.kept, List.mem_filter, List.mem_finRange]
  have k1 : (1 : Fin 2) ∈ (rowsScatter N L C wf).sKept := by
    simp [ScatterDims.sKept, Shape.kept, List.mem_filter, List.mem_finRange]
  have w0 : (rowsScatter N L C wf).window (ix2 l c) 0 = 0 := by
    unfold ScatterDims.window
    exact dif_neg k0
  have s1 : (rowsScatter N L C wf).start (ix2 l c) idx 1 = 0 := by
    unfold ScatterDims.start
    exact dif_neg (show (1 : Fin 2) ∉ ([0] : List (Fin 2)) by decide)
  have w1 : (rowsScatter N L C wf).window (ix2 l c) 1 = c.val := by
    unfold ScatterDims.window
    rw [dif_pos k1]
    rfl
  have hn : n.val < N := n.isLt
  have hc : c.val < C := c.isLt
  have hall : ∀ a, 0 ≤ (rowsScatter N L C wf).start (ix2 l c) idx a + ((rowsScatter N L C wf).window (ix2 l c) a : Int)
      ∧ (rowsScatter N L C wf).start (ix2 l c) idx a + ((rowsScatter N L C wf).window (ix2 l c) a : Int)
        < ((⟨2, ![N, C]⟩ : Shape).size a : Int) := by
    intro a
    match a with
    | ⟨0, _⟩ =>
      show 0 ≤ (rowsScatter N L C wf).start (ix2 l c) idx 0 + (((rowsScatter N L C wf).window (ix2 l c) 0 : Nat) : Int)
        ∧ (rowsScatter N L C wf).start (ix2 l c) idx 0 + (((rowsScatter N L C wf).window (ix2 l c) 0 : Nat) : Int) < ((N : Nat) : Int)
      rw [s0, w0, h]
      omega
    | ⟨1, _⟩ =>
      show 0 ≤ (rowsScatter N L C wf).start (ix2 l c) idx 1 + (((rowsScatter N L C wf).window (ix2 l c) 1 : Nat) : Int)
        ∧ (rowsScatter N L C wf).start (ix2 l c) idx 1 + (((rowsScatter N L C wf).window (ix2 l c) 1 : Nat) : Int) < ((C : Nat) : Int)
      rw [s1, w1]
      omega
  unfold ScatterDims.resultIdx?
  rw [dif_pos hall]
  congr 1
  funext a
  refine Fin.ext ?_
  match a with
  | ⟨0, _⟩ =>
    show ((rowsScatter N L C wf).start (ix2 l c) idx 0 + ((rowsScatter N L C wf).window (ix2 l c) 0 : Int)).toNat = n.val
    rw [s0, w0, h]; omega
  | ⟨1, _⟩ =>
    show ((rowsScatter N L C wf).start (ix2 l c) idx 1 + ((rowsScatter N L C wf).window (ix2 l c) 1 : Int)).toNat = c.val
    rw [s1, w1]; omega

/-- THE ROW SCATTER-ADD READ AT `(n, c)`: the operand there plus the sum, over the picks whose scatter index is `n`, of
    the update's element `(l, c)`. -/
theorem scatterAdd_rows_apply {N L C w : Nat}
    (wf : ScatterDims.WF ⟨2, ![N, C]⟩ ⟨2, ![L, 1]⟩ ⟨2, ![L, C]⟩ [1] [0] [0] 1)
    (x : (⟨2, ![N, C]⟩ : Shape).Idx → EReal) (idx : IVec ⟨2, ![L, 1]⟩ w)
    (upd : (⟨2, ![L, C]⟩ : Shape).Idx → EReal) (n : Fin N) (c : Fin C) :
    Ideal.hostScatterAdd (rowsScatter N L C wf) x idx upd (ix2 n c)
      = x (ix2 n c) + ∑ l ∈ Finset.univ.filter (fun l : Fin L => (idx (pickIdx l)).toInt = (n.val : Int)), upd (ix2 l c) := by
  unfold Ideal.hostScatterAdd
  congr 1
  refine Finset.sum_nbij' (fun j => j 0) (fun l => ix2 l c) ?_ ?_ ?_ ?_ ?_
  · intro j hj
    have hr := scatter_rows_resultIdx wf idx j (ix2 n c) (Finset.mem_filter.mp hj).2
    exact Finset.mem_filter.mpr ⟨Finset.mem_univ _, hr.1⟩
  · intro l hl
    exact Finset.mem_filter.mpr ⟨Finset.mem_univ _, scatter_rows_lands wf idx l c n (Finset.mem_filter.mp hl).2⟩
  · intro j hj
    have hr := scatter_rows_resultIdx wf idx j (ix2 n c) (Finset.mem_filter.mp hj).2
    have e : j 1 = c := Fin.ext hr.2
    show ix2 (j 0) c = j
    exact ((eq_ix2 j).trans (congrArg (fun z : Fin C => ix2 (j 0) z) e)).symm
  · intro l _; rfl
  · intro j hj
    have hr := scatter_rows_resultIdx wf idx j (ix2 n c) (Finset.mem_filter.mp hj).2
    have e : j 1 = c := Fin.ext hr.2
    show upd j = upd (ix2 (j 0) c)
    exact congrArg upd ((eq_ix2 j).trans (congrArg (fun z : Fin C => ix2 (j 0) z) e))

/-- ROWS GATHERED AND SUMMED OVER THE EDGES: the scatter-add, from a zero operand, of the rows of `P` gathered at the picks'
    sources, read at `(n, c)`: the sum, over the picks whose destination index is `n`, of `P` at the pick's source row
    (read signed and clamped into `[0, N − 1]`), column `c`. -/
theorem agg_rows_apply {N L C w : Nat} (hN : 0 < N)
    (wfs : ScatterDims.WF ⟨2, ![N, C]⟩ ⟨2, ![L, 1]⟩ ⟨2, ![L, C]⟩ [1] [0] [0] 1)
    (wfg : GatherDims.WF ⟨2, ![N, C]⟩ ⟨2, ![L, 1]⟩ ⟨2, ![L, C]⟩ [1] [0] [] [0] [] 1 ![1, C])
    (z : (⟨2, ![N, C]⟩ : Shape).Idx → EReal) (hz : ∀ i, z i = 0) (dst src : IVec ⟨2, ![L, 1]⟩ w)
    (P : (⟨2, ![N, C]⟩ : Shape).Idx → EReal) (n : Fin N) (c : Fin C) :
    Ideal.hostScatterAdd (rowsScatter N L C wfs) z dst (Host.gather (rowsDims N L C wfg) P src) (ix2 n c)
      = ∑ l ∈ Finset.univ.filter (fun l : Fin L => (dst (pickIdx l)).toInt = (n.val : Int)),
          P (ix2 (⟨min (src (pickIdx l)).toInt.toNat (N - 1), by omega⟩ : Fin N) c) := by
  rw [scatterAdd_rows_apply, hz, zero_add]
  refine Finset.sum_congr rfl fun l _ => ?_
  rw [gather_rows_apply hN]
  rfl

end Cert.Sage

end
-- ==== Proof.LibScaledScatter.lean ====
/-
  A sum of extended reals scaled by a non-negative real, and the accumulating scatter scaled.

  On the extended reals multiplication does not distribute over addition in general (`(⊤ + ⊥) * (-1)` against
  `⊤ * (-1) + ⊥ * (-1)`; `(1 + (-1)) * ⊤` against `⊤ + ⊥`), but it does when the common factor `q` is a non-negative REAL:
  `0 ≤ q`, `q ≠ ⊤`. Then a finite sum scaled is the sum of the scaled terms (`sum_mul_of_nonneg_ne_top`), and so the exact
  accumulating scatter (each operand element plus the sum of the updates landing on it) scaled at an element `i` is the
  scatter of the scaled operand and the scaled updates — only the updates that LAND ON `i` need be compared
  (`hostScatterAdd_mul`). Last, the reciprocal square root of an extended real `y ≥ 1` is such a factor
  (`rsqrt_nonneg_ne_top`: `⊤ ↦ 0`, a real `r ≥ 1 ↦ 1/√r`).
-/
import Idealize.ShloMosaic.PureOps.Ideal

noncomputable section

open scoped BigOperators

namespace Idealize.ShloMosaic.ScaledScatter

open Idealize.ShloMosaic

/-- A finite sum of extended reals times a non-negative real is the sum of the terms times it. -/
theorem sum_mul_of_nonneg_ne_top {ι : Type} (s : Finset ι) (f : ι → EReal) {q : EReal} (h0 : 0 ≤ q) (ht : q ≠ ⊤) :
    (∑ j ∈ s, f j) * q = ∑ j ∈ s, f j * q := by
  classical
  induction s using Finset.induction_on with
  | empty => simp
  | insert a s ha ih =>
    rw [Finset.sum_insert ha, Finset.sum_insert ha, EReal.right_distrib_of_nonneg_of_ne_top h0 ht, ih]

/-- THE ACCUMULATING SCATTER, SCALED AT ONE ELEMENT by a non-negative real `q`: the scatter of an operand whose element
    there is the scaled one and of updates that, WHERE THEY LAND ON THAT ELEMENT, are the scaled ones. -/
theorem hostScatterAdd_mul {s si su : Shape} (d : ScatterDims s si su) {w : Nat} (idx : IVec si w)
    (x x' : s.Idx → EReal) (upd upd' : su.Idx → EReal) (i : s.Idx) {q : EReal} (h0 : 0 ≤ q) (ht : q ≠ ⊤)
    (hx : x i * q = x' i) (hu : ∀ j, d.resultIdx? j idx = some i → upd j * q = upd' j) :
    Ideal.hostScatterAdd d x idx upd i * q = Ideal.hostScatterAdd d x' idx upd' i := by
  unfold Ideal.hostScatterAdd
  rw [EReal.right_distrib_of_nonneg_of_ne_top h0 ht, sum_mul_of_nonneg_ne_top _ _ h0 ht, hx]
  congr 1
  exact Finset.sum_congr rfl fun j hj => hu j (Finset.mem_filter.mp hj).2

/-- The reciprocal square root of an extended real at least `1` is a non-negative real. -/
theorem rsqrt_nonneg_ne_top {y : EReal} (hy : 1 ≤ y) : 0 ≤ Ideal.rsqrt y ∧ Ideal.rsqrt y ≠ ⊤ := by
  induction y using EReal.rec with
  | bot =>
    exact absurd (lt_of_lt_of_le (show (⊥ : EReal) < 1 by rw [← EReal.coe_one]; exact EReal.bot_lt_coe 1) hy) (lt_irrefl _)
  | top => simp
  | coe r =>
    have hr : (1 : ℝ) ≤ r := by exact_mod_cast hy
    rw [Ideal.rsqrt_coe, if_neg (by linarith), if_neg (by linarith)]
    exact ⟨by exact_mod_cast inv_nonneg.mpr (Real.sqrt_nonneg r), EReal.coe_ne_top _⟩

end Idealize.ShloMosaic.ScaledScatter

end
-- ==== Proof.Algebra.lean ====
/-
  The algebra of a mean aggregation followed by a linear map, on the extended reals.

  A node's mean aggregate is a sum over its incoming edges of rows of a NON-NEGATIVE array `h` (a rectified
  activation, possibly `⊤`), scaled by the reciprocal `q` of the node's clamped in-degree, a positive real.
  Multiplying the aggregate by a matrix `W` is the same as aggregating the rows already multiplied by `W`:
  a sum of non-negative terms distributes over any factor, and a non-negative REAL factor distributes over any
  sum — the two cases in which the extended reals' multiplication distributes over addition.
-/
import Idealize.ShloMosaic.PureOps.Ideal
import proofs.«167639_j48318382080414_2_alg».proof.Proof.LibScaledScatter

noncomputable section

open scoped BigOperators

namespace Cert.Sage

open Idealize.ShloMosaic Idealize.ShloMosaic.ScaledScatter

/-- A finite sum of NON-NEGATIVE extended reals times any factor is the sum of the terms times it. -/
theorem sum_nonneg_mul {ι : Type} (s : Finset ι) (f : ι → EReal) (hf : ∀ i ∈ s, 0 ≤ f i) (w : EReal) :
    (∑ i ∈ s, f i) * w = ∑ i ∈ s, f i * w := by
  classical
  induction s using Finset.induction_on with
  | empty => simp
  | insert a s ha ih =>
    rw [Finset.sum_insert ha, Finset.sum_insert ha,
      EReal.right_distrib_of_nonneg (hf a (Finset.mem_insert_self _ _))
        (Finset.sum_nonneg fun i hi => hf i (Finset.mem_insert_of_mem hi)),
      ih (fun i hi => hf i (Finset.mem_insert_of_mem hi))]

/-- AGGREGATE THEN MULTIPLY = MULTIPLY THEN AGGREGATE: over the edges `E` into a node, with the rows `h e` non-negative and
    the scale `q` a non-negative real, `(∑ₑ ∑_c h e c · W c) · q = ∑_c ((∑ₑ h e c) · q) · W c`. -/
theorem agg_linear {ι κ : Type} [Fintype κ] (E : Finset ι) (h : ι → κ → EReal) (hh : ∀ e c, 0 ≤ h e c)
    (W : κ → EReal) {q : EReal} (h0 : 0 ≤ q) (ht : q ≠ ⊤) :
    (∑ e ∈ E, ∑ c, h e c * W c) * q = ∑ c, ((∑ e ∈ E, h e c) * q) * W c := by
  rw [sum_mul_of_nonneg_ne_top E _ h0 ht]
  have hR : ∀ c, ((∑ e ∈ E, h e c) * q) * W c = ∑ e ∈ E, (h e c * W c) * q := fun c => by
    rw [sum_mul_of_nonneg_ne_top E _ h0 ht, sum_nonneg_mul E _ (fun e _ => mul_nonneg (hh e c) h0)]
    exact Finset.sum_congr rfl fun e _ => mul_right_comm _ _ _
  rw [Finset.sum_congr rfl fun c _ => hR c, Finset.sum_comm]
  exact Finset.sum_congr rfl fun e _ => sum_mul_of_nonneg_ne_top Finset.univ _ h0 ht

/-- A product with the reciprocal `1 / D` of a non-zero `D` is the quotient by `D`. -/
theorem mul_div_one {D : EReal} (hD : D ≠ 0) (x : EReal) : x * Ideal.div 1 D = Ideal.div x D := by
  unfold Ideal.div
  rw [if_neg hD, if_neg hD, one_mul]

/-- The reciprocal of a real `d ≥ 1` is a non-negative real. -/
theorem div_one_coe {d : ℝ} (hd : 1 ≤ d) :
    0 ≤ Ideal.div 1 (d : EReal) ∧ Ideal.div 1 (d : EReal) ≠ ⊤ ∧ ((d : EReal) ≠ 0) := by
  have hne : (d : EReal) ≠ 0 := by
    have : d ≠ 0 := by linarith
    exact_mod_cast this
  have e : Ideal.div 1 (d : EReal) = ((d⁻¹ : ℝ) : EReal) := by
    unfold Ideal.div
    rw [if_neg hne, one_mul, EReal.coe_inv]
  refine ⟨?_, ?_, hne⟩
  · rw [e]; exact_mod_cast inv_nonneg.mpr (by linarith)
  · rw [e]; exact EReal.coe_ne_top _

/-- A count of ones clamped below at one is a real `≥ 1`. -/
theorem max_count_one {ι : Type} (s : Finset ι) :
    ∃ d : ℝ, 1 ≤ d ∧ max ((0 : EReal) + ∑ _j ∈ s, (1 : EReal)) 1 = (d : EReal) := by
  refine ⟨max (s.card : ℝ) 1, le_max_right _ _, ?_⟩
  have e : (∑ _j ∈ s, (1 : EReal)) = ((s.card : ℝ) : EReal) := by
    classical
    induction s using Finset.induction_on with
    | empty => simp
    | insert a s ha ih =>
      rw [Finset.sum_insert ha, ih, Finset.card_insert_of_notMem ha, Nat.cast_add, Nat.cast_one, EReal.coe_add,
        EReal.coe_one, add_comm]
  rw [zero_add, e, ← EReal.coe_one]
  exact (Monotone.map_max EReal.coe_strictMono.monotone).symm

/-- The word `0x3F800000` denotes the real `1`. -/
theorem ofBits_one : Ideal.ofBits .f32 0x3F800000#32 = 1 := by
  simp [Ideal.ofBits, Ideal.ieee, -EReal.coe_mul]; norm_num

end Cert.Sage

end
-- ==== Proof.BridgeHidden.lean ====
/-
  The two programs' hidden activations are one function.

  Both programs aggregate the features over the edges and clamp the in-degree `d ≥ 1` (a count of ones, so a real).
  The reference divides the aggregate by `d` on the host; the kernel multiplies it by the reciprocal `1/d` inside its
  first region. For a non-zero `d` the two are the same extended real. Everything after that — two matrix products, the
  bias, the normalisation and the rectifier — is the same expression on both sides, entry by entry.
-/
import proofs.«167639_j48318382080414_2_alg».proof.Proof.KernelValue
import proofs.«167639_j48318382080414_2_alg».proof.Proof.RowOps
import proofs.«167639_j48318382080414_2_alg».proof.Proof.Algebra

set_option maxRecDepth 16384

noncomputable section

open scoped BigOperators

namespace Cert.Sage.Bridge

open Idealize.ShloMosaic Idealize.ShloMosaic.ValueIdx Idealize.ShloMosaic.RowIndexing
open Cert.ReferenceIdeal Cert.ReferenceIdeal.Read Cert.Sage

variable (x0 : (⟨S50000x128, .f32⟩ : BufTy).Contents (Elt Ideal)) (x1 : (⟨S2x600000, .i32⟩ : BufTy).Contents (Elt Ideal))
  (x2 x3 : (⟨S128x256, .f32⟩ : BufTy).Contents (Elt Ideal)) (x4 x5 x6 x7 x8 : (⟨S256, .f32⟩ : BufTy).Contents (Elt Ideal))
  (x9 x10 : (⟨S256x128, .f32⟩ : BufTy).Contents (Elt Ideal)) (x11 : (⟨S128, .f32⟩ : BufTy).Contents (Elt Ideal))

/-- An index of a two-axis array is the pair of its coordinates. -/
theorem ix2_of {n0 n1 : Nat} (j : (⟨2, ![n0, n1]⟩ : Shape).Idx) (a : Fin n0) (b : Fin n1) (h0 : (j 0).val = a.val)
    (h1 : (j 1).val = b.val) : j = ix2 a b := by
  have e0 : j 0 = a := Fin.ext h0
  have e1 : j 1 = b := Fin.ext h1
  exact (eq_ix2 j).trans ((congrArg (fun z : Fin n0 => ix2 z (j 1)) e0).trans (congrArg (fun z : Fin n1 => ix2 a z) e1))
theorem ix1_of {n0 : Nat} (j : (⟨1, ![n0]⟩ : Shape).Idx) (a : Fin n0) (h0 : (j 0).val = a.val) : j = ix1 a := by
  have e0 : j 0 = a := Fin.ext h0
  exact (eq_ix1 j).trans (congrArg (fun z : Fin n0 => ix1 z) e0)

/-- The edges into node `n`: the picks whose destination index, read signed, is `n`. -/
abbrev E (n : Fin 50000) : Finset (Fin 600000) :=
  Finset.univ.filter fun l => ((val_main_v12 (F := Ideal) x1) (pickIdx l)).toInt = (n.val : Int)

/-- The source node of edge `l`: its source index read signed and clamped into the node range. -/
abbrev src (l : Fin 600000) : Fin 50000 :=
  ⟨min ((val_main_v9 (F := Ideal) x1) (pickIdx l)).toInt.toNat (50000 - 1), by omega⟩

/-- The clamped in-degree of a node is a real `≥ 1`: a count of ones, clamped below at one. -/
theorem deg_real (n : Fin 50000) : ∃ d : ℝ, 1 ≤ d ∧ val_main_v19 (F := Ideal) x1 (ix1 n) = (d : EReal) := by
  have h17 : ∃ s : Finset S600000.Idx, val_main_v17 (F := Ideal) x1 (ix1 n) = 0 + ∑ _j ∈ s, (1 : EReal) := by
    unfold val_main_v17
    rw [Host.scatterAdd, Ideal.hostScatterAdd_def]
    unfold Ideal.hostScatterAdd
    beta_reduce
    exact ⟨_, by
      rw [val_main_v15_apply, val_main_cst_2_apply, Ideal.ofBits_def, Ideal.ofBits_zero_f32]
      exact congrArg (fun z => (0 : EReal) + z) (Finset.sum_congr rfl fun j _ => by
        rw [val_main_v14_apply, val_main_cst_1_apply, Ideal.ofBits_def, ofBits_one])⟩
  have h18 : val_main_v18 (F := Ideal) (ix1 n) = 1 := by
    rw [val_main_v18_apply, val_main_cst_3_apply, Ideal.ofBits_def, ofBits_one]
  obtain ⟨s, hs⟩ := h17
  obtain ⟨d, hd, e⟩ := max_count_one s
  exact ⟨d, hd, by rw [val_main_v19_apply, Ideal.maximumf_def, hs, h18]; exact e⟩

/-- The kernel's reciprocal-degree column at node `n` is `1 / d`. -/
theorem dinv_apply (n : Fin 50000) :
    Cert.KernelIdeal.Out.dinvCol (F := Ideal) x1 (ix2 n (0 : Fin 1)) = Ideal.div 1 (val_main_v19 (F := Ideal) x1 (ix1 n)) := by
  unfold Cert.KernelIdeal.Out.dinvCol
  rw [Cert.LibKeepdims.shapeCast_a_a1_apply]
  rw [show ∀ (A B : S50000.Idx → EReal) (i : S50000.Idx), Host.divf (F := Ideal) (s := S50000) (φ := .f32) A B i = Ideal.div (A i) (B i)
    from fun _ _ _ => rfl, val_main_v18_apply, val_main_cst_3_apply, Ideal.ofBits_def, ofBits_one]

/-- The aggregated features at `(n, k)`, in the kernel program's spelling: the sum over the edges into `n` of the
    source node's feature `k`. -/
theorem aggK_apply (P : (⟨S50000x128, .f32⟩ : BufTy).Contents (Elt Ideal)) (n : Fin 50000) (k : Fin 128) :
    Cert.KernelIdeal.Out.aggRows (F := Ideal) P x1 (ix2 n k) = ∑ l ∈ E x1 n, P (ix2 (src x1 l) k) := by
  unfold Cert.KernelIdeal.Out.aggRows
  rw [Host.scatterAdd, Ideal.hostScatterAdd_def]
  have hs : Cert.KernelIdeal.scatter_S50000x128_S600000x1_S600000x128_1_0_0_1
      = rowsScatter 50000 600000 128 Cert.KernelIdeal.scatter_S50000x128_S600000x1_S600000x128_1_0_0_1.wf := rfl
  have hg : Cert.KernelIdeal.gather_S50000x128_S600000x1_S600000x128_1_0_n_n_0_1_1128
      = rowsDims 50000 600000 128 Cert.KernelIdeal.gather_S50000x128_S600000x1_S600000x128_1_0_n_n_0_1_1128.wf := rfl
  rw [hs, hg]
  exact agg_rows_apply (by decide) _ _ _ (fun i => by
    rw [val_main_v11_apply, val_main_cst_apply, Ideal.ofBits_def, Ideal.ofBits_zero_f32]) _ _ P n k

/-- The same in the reference program's spelling. -/
theorem aggR_apply (n : Fin 50000) (k : Fin 128) :
    val_main_v13 (F := Ideal) x0 x1 (ix2 n k) = ∑ l ∈ E x1 n, x0 (ix2 (src x1 l) k) := by
  unfold val_main_v13 val_main_v10
  rw [Host.scatterAdd, Ideal.hostScatterAdd_def]
  have hs : scatter_S50000x128_S600000x1_S600000x128_1_0_0_1
      = rowsScatter 50000 600000 128 scatter_S50000x128_S600000x1_S600000x128_1_0_0_1.wf := rfl
  have hg : gather_S50000x128_S600000x1_S600000x128_1_0_n_n_0_1_1128
      = rowsDims 50000 600000 128 gather_S50000x128_S600000x1_S600000x128_1_0_n_n_0_1_1128.wf := rfl
  rw [hs, hg]
  exact agg_rows_apply (by decide) _ _ _ (fun i => by
    rw [val_main_v11_apply, val_main_cst_apply, Ideal.ofBits_def, Ideal.ofBits_zero_f32]) _ _ x0 n k

/-- THE HIDDEN ACTIVATIONS AGREE: the reference's rectified hidden array at `(n, c)` is the kernel's hidden activation of
    node `n` at channel `c`. -/
theorem hidden_eq (n : Fin 50000) (c : Fin 256) :
    val_main_v44 (F := Ideal) x0 x1 x2 x3 x4 x5 x6 x7 x8 (ix2 n c)
      = Cert.KernelIdeal.Combine1.H (Cert.KernelIdeal.Out.aggRows (F := Ideal) x0 x1) x0 (Cert.KernelIdeal.Out.dinvCol (F := Ideal) x1) x2 x3 x4 x5 x6 x7 x8 n c := by
  obtain ⟨d, hd, hD⟩ := deg_real x1 n
  obtain ⟨-, -, hne⟩ := div_one_coe hd
  have e4 : idx_main_v26 (idx_main_v27 (ix2 n c)) = ix1 c := ix1_of _ _ rfl
  have e7 : idx_main_v29 (idx_main_v30 (ix2 n c)) = ix1 c := ix1_of _ _ rfl
  have e8 : idx_main_v35 (idx_main_v36 (ix2 n c)) = ix1 c := ix1_of _ _ rfl
  have e5 : idx_main_v38 (idx_main_v39 (ix2 n c)) = ix1 c := ix1_of _ _ rfl
  have e6 : idx_main_v41 (idx_main_v42 (ix2 n c)) = ix1 c := ix1_of _ _ rfl
  unfold Cert.KernelIdeal.Combine1.H hrow
  rw [val_main_v44_apply, val_main_v43_apply, val_main_v40_apply, val_main_v37_apply, val_main_v31_apply,
    val_main_v28_apply, val_main_v25_apply, val_main_v23_apply, val_main_v24_apply, val_main_v27_apply, val_main_v26_apply,
    val_main_v30_apply, val_main_v29_apply, val_main_v36_apply, val_main_v35_apply, val_main_v34_apply, val_main_v33_apply,
    val_main_v32_apply, val_main_cst_4_apply, val_main_v39_apply, val_main_v38_apply, val_main_v42_apply, val_main_v41_apply,
    val_main_call0_v0_apply, val_main_call0_cst_apply, e4, e7, e8, e5, e6]
  have hl23 : ∀ k, lidx_main_v23 (ix2 n c) k = ix2 n k := fun k => ix2_of _ _ _ rfl rfl
  have hr23 : ∀ k, ridx_main_v23 (ix2 n c) k = ix2 k c := fun k => ix2_of _ _ _ rfl rfl
  have hl24 : ∀ k, lidx_main_v24 (ix2 n c) k = ix2 n k := fun k => ix2_of _ _ _ rfl rfl
  have hr24 : ∀ k, ridx_main_v24 (ix2 n c) k = ix2 k c := fun k => ix2_of _ _ _ rfl rfl
  have hA : ∀ k : Fin 128, val_main_v22 (F := Ideal) x0 x1 (ix2 n k)
      = Cert.KernelIdeal.Out.aggRows (F := Ideal) x0 x1 (ix2 n k) * Cert.KernelIdeal.Out.dinvCol (F := Ideal) x1 (ix2 n (0 : Fin 1)) := fun k => by
    have ed : idx_main_v20 (idx_main_v21 (ix2 n k)) = ix1 n := ix1_of _ _ rfl
    rw [val_main_v22_apply, val_main_v21_apply, val_main_v20_apply, ed, Ideal.hostDivf_def, dinv_apply, aggK_apply,
      aggR_apply, hD, mul_div_one hne]
  simp only [hl23, hr23, hl24, hr24, hA, Ideal.maximumf_def, Ideal.addf_def, Ideal.mulf_def, Ideal.subf_def,
    Ideal.hostUnary_rsqrt_def, Ideal.ofBits_def, Ideal.ofBits_zero_f32]

end Cert.Sage.Bridge

end
-- ==== Proof.Bridge.lean ====
/-
  The two programs' results are one function of the arguments.

  At node `n` and output channel `j`, with `h` the (shared) hidden activations, `E` the edges into `n`, `q = 1/d` the reciprocal
  of the node's clamped in-degree:
    kernel     `(∑_{l ∈ E} ∑_c h(src l, c) · W₂ˡ(c, j)) · q + (∑_c h(n, c) · W₂ʳ(c, j) + b(j))`
    reference  `(∑_c ((∑_{l ∈ E} h(src l, c)) / d) · W₂ˡ(c, j) + ∑_c h(n, c) · W₂ʳ(c, j)) + b(j)`.
  The first terms agree because `h ≥ 0` and `q` is a non-negative real (`agg_linear`); the rest is associativity.
-/
import proofs.«167639_j48318382080414_2_alg».proof.Proof.BridgeHidden

set_option maxRecDepth 16384

noncomputable section

open scoped BigOperators

namespace Cert.Sage.Bridge

open Idealize.ShloMosaic Idealize.ShloMosaic.ValueIdx Idealize.ShloMosaic.RowIndexing
open Cert.ReferenceIdeal Cert.ReferenceIdeal.Read Cert.Sage

variable (x0 : (⟨S50000x128, .f32⟩ : BufTy).Contents (Elt Ideal)) (x1 : (⟨S2x600000, .i32⟩ : BufTy).Contents (Elt Ideal))
  (x2 x3 : (⟨S128x256, .f32⟩ : BufTy).Contents (Elt Ideal)) (x4 x5 x6 x7 x8 : (⟨S256, .f32⟩ : BufTy).Contents (Elt Ideal))
  (x9 x10 : (⟨S256x128, .f32⟩ : BufTy).Contents (Elt Ideal)) (x11 : (⟨S128, .f32⟩ : BufTy).Contents (Elt Ideal))

/-- The reference's aggregated hidden activations at `(n, c)`: the sum over the edges into `n` of the source node's
    activation `c`. -/
theorem aggR256_apply (n : Fin 50000) (c : Fin 256) :
    val_main_v54 (F := Ideal) x0 x1 x2 x3 x4 x5 x6 x7 x8 (ix2 n c) = ∑ l ∈ E x1 n, val_main_v44 (F := Ideal) x0 x1 x2 x3 x4 x5 x6 x7 x8 (ix2 (src x1 l) c) := by
  unfold val_main_v54 val_main_v51
  rw [Host.scatterAdd, Ideal.hostScatterAdd_def]
  have hs : scatter_S50000x256_S600000x1_S600000x256_1_0_0_1
      = rowsScatter 50000 600000 256 scatter_S50000x256_S600000x1_S600000x256_1_0_0_1.wf := rfl
  have hg : gather_S50000x256_S600000x1_S600000x256_1_0_n_n_0_1_1256
      = rowsDims 50000 600000 256 gather_S50000x256_S600000x1_S600000x256_1_0_n_n_0_1_1256.wf := rfl
  have e53 : val_main_v53 (F := Ideal) x1 = val_main_v12 (F := Ideal) x1 := rfl
  have e50 : val_main_v50 (F := Ideal) x1 = val_main_v9 (F := Ideal) x1 := rfl
  rw [hs, hg, e53, e50]
  exact agg_rows_apply (by decide) _ _ _ (fun i => by
    rw [val_main_v52_apply, val_main_cst_7_apply, Ideal.ofBits_def, Ideal.ofBits_zero_f32]) _ _
    (val_main_v44 (F := Ideal) x0 x1 x2 x3 x4 x5 x6 x7 x8) n c

/-- THE RESULTS AGREE, index by index. -/
theorem out_eq : Cert.KernelIdeal.Out.KOut x0 x1 x2 x3 x4 x5 x6 x7 x8 x9 x10 x11
    = val_main_v69 (F := Ideal) x0 x1 x2 x3 x4 x5 x6 x7 x8 x9 x10 x11 := by
  funext i
  obtain ⟨n, j, rfl⟩ : ∃ (n : Fin 50000) (j : Fin 128), i = ix2 n j := ⟨i 0, i 1, eq_ix2 i⟩
  obtain ⟨d, hd, hD⟩ := deg_real x1 n
  obtain ⟨hq0, hqt, hne⟩ := div_one_coe hd
  -- the reference's side, read at `(n, j)`
  have e60 : val_main_v60 (F := Ideal) x1 = val_main_v19 (F := Ideal) x1 := rfl
  have eb : idx_main_v67 (idx_main_v68 (ix2 n j)) = ix1 j := ix1_of _ _ rfl
  have hR : val_main_v69 (F := Ideal) x0 x1 x2 x3 x4 x5 x6 x7 x8 x9 x10 x11 (ix2 n j)
      = ((∑ c : Fin 256, ((∑ l ∈ E x1 n, (Cert.KernelIdeal.Combine1.H (Cert.KernelIdeal.Out.aggRows (F := Ideal) x0 x1) x0 (Cert.KernelIdeal.Out.dinvCol (F := Ideal) x1) x2 x3 x4 x5 x6 x7 x8) (src x1 l) c) * Ideal.div 1 (d : EReal)) * x9 (ix2 c j))
          + ∑ c : Fin 256, (Cert.KernelIdeal.Combine1.H (Cert.KernelIdeal.Out.aggRows (F := Ideal) x0 x1) x0 (Cert.KernelIdeal.Out.dinvCol (F := Ideal) x1) x2 x3 x4 x5 x6 x7 x8) n c * x10 (ix2 c j)) + x11 (ix1 j) := by
    have hl64 : ∀ c, lidx_main_v64 (ix2 n j) c = ix2 n c := fun c => ix2_of _ _ _ rfl rfl
    have hr64 : ∀ c, ridx_main_v64 (ix2 n j) c = ix2 c j := fun c => ix2_of _ _ _ rfl rfl
    have hl65 : ∀ c, lidx_main_v65 (ix2 n j) c = ix2 n c := fun c => ix2_of _ _ _ rfl rfl
    have hr65 : ∀ c, ridx_main_v65 (ix2 n j) c = ix2 c j := fun c => ix2_of _ _ _ rfl rfl
    have hB : ∀ c : Fin 256, val_main_v63 (F := Ideal) x0 x1 x2 x3 x4 x5 x6 x7 x8 (ix2 n c)
        = (∑ l ∈ E x1 n, (Cert.KernelIdeal.Combine1.H (Cert.KernelIdeal.Out.aggRows (F := Ideal) x0 x1) x0 (Cert.KernelIdeal.Out.dinvCol (F := Ideal) x1) x2 x3 x4 x5 x6 x7 x8) (src x1 l) c) * Ideal.div 1 (d : EReal) := fun c => by
      have ed : idx_main_v61 (idx_main_v62 (ix2 n c)) = ix1 n := ix1_of _ _ rfl
      rw [val_main_v63_apply, val_main_v62_apply, val_main_v61_apply, ed, e60, hD, Ideal.hostDivf_def]
      refine (mul_div_one hne _).symm.trans ?_
      rw [aggR256_apply]
      exact congrArg (fun z => z * Ideal.div 1 (d : EReal))
        (Finset.sum_congr rfl fun l _ => hidden_eq x0 x1 x2 x3 x4 x5 x6 x7 x8 (src x1 l) c)
    have hH : ∀ c : Fin 256, val_main_v44 (F := Ideal) x0 x1 x2 x3 x4 x5 x6 x7 x8 (ix2 n c) = (Cert.KernelIdeal.Combine1.H (Cert.KernelIdeal.Out.aggRows (F := Ideal) x0 x1) x0 (Cert.KernelIdeal.Out.dinvCol (F := Ideal) x1) x2 x3 x4 x5 x6 x7 x8) n c :=
      fun c => hidden_eq x0 x1 x2 x3 x4 x5 x6 x7 x8 n c
    rw [val_main_v69_apply, val_main_v66_apply, val_main_v64_apply, val_main_v65_apply, val_main_v68_apply,
      val_main_v67_apply, eb]
    simp only [hl64, hr64, hl65, hr65, hB, hH, Ideal.addf_def]
  -- the kernel's side, read at `(n, j)`
  have hK : Cert.KernelIdeal.Out.KOut x0 x1 x2 x3 x4 x5 x6 x7 x8 x9 x10 x11 (ix2 n j)
      = (∑ l ∈ E x1 n, ∑ c : Fin 256, (Cert.KernelIdeal.Combine1.H (Cert.KernelIdeal.Out.aggRows (F := Ideal) x0 x1) x0 (Cert.KernelIdeal.Out.dinvCol (F := Ideal) x1) x2 x3 x4 x5 x6 x7 x8) (src x1 l) c * x9 (ix2 c j)) * Ideal.div 1 (d : EReal)
          + ((∑ c : Fin 256, (Cert.KernelIdeal.Combine1.H (Cert.KernelIdeal.Out.aggRows (F := Ideal) x0 x1) x0 (Cert.KernelIdeal.Out.dinvCol (F := Ideal) x1) x2 x3 x4 x5 x6 x7 x8) n c * x10 (ix2 c j)) + x11 (ix1 j)) := by
    unfold Cert.KernelIdeal.Out.KOut Cert.KernelIdeal.Combine2.G
    show Cert.KernelIdeal.Out.aggRows (F := Ideal) _ x1 (ix2 n j) * Cert.KernelIdeal.Out.dinvCol (F := Ideal) x1 (ix2 n (0 : Fin 1)) + _ = _
    rw [aggK_apply, dinv_apply, hD]
    rfl
  rw [hK, hR, agg_linear (E x1 n) (fun l c => (Cert.KernelIdeal.Combine1.H (Cert.KernelIdeal.Out.aggRows (F := Ideal) x0 x1) x0 (Cert.KernelIdeal.Out.dinvCol (F := Ideal) x1) x2 x3 x4 x5 x6 x7 x8) (src x1 l) c)
    (fun l c => hrow_nonneg _ _ _ _ _ _ _ _ _ c) (fun c => x9 (ix2 c j)) hq0 hqt, add_assoc]

end Cert.Sage.Bridge

end
-- ==== Proof.lean ====
/-
  A two-layer GraphSAGE encoder with mean aggregation, batch normalisation and a rectifier between the layers: the kernel
  program against the plain reference, at the ideal instance (floats extended reals, every operation exact).

  Layer 1 is the same on both sides but for the mean: the reference divides the aggregated features by the clamped
  in-degree `d`, the kernel multiplies them by `1/d`; `d` is a count clamped below at one, a real `≥ 1`, so the two agree.
  Layer 2 is where the programs differ: the reference aggregates the hidden activations `h` over the edges, divides by `d`,
  and multiplies by the left weight matrix; the kernel multiplies `h` by that matrix first (inside its first region) and
  aggregates the narrower product, scaling by `1/d` in its second region. The hidden activations may be infinite (the
  normalisation's `rsqrt` of a non-positive variance is `⊤` or `⊥`), so the exchange is not the reals' distributivity; it
  holds because `h` is rectified, hence non-negative — a sum of non-negative extended reals distributes over any factor
  — and `1/d` is a non-negative real, which distributes over any sum. No finiteness of the inputs is used.

  The kernel program's value is read off its run (two regions among two host stretches: KernelValue, over Combine1 and
  Combine2 for the regions' output arrays); the reference's is its run read one operation at a time; Bridge equates the two
  index by index.
-/
import proofs.«167639_j48318382080414_2_alg».proof.Defs
import proofs.«167639_j48318382080414_2_alg».proof.Proof.Gen.Kernel
import proofs.«167639_j48318382080414_2_alg».proof.Proof.Gen.Kernel.Skeleton
import proofs.«167639_j48318382080414_2_alg».proof.Proof.Gen.Kernel.Launch
import proofs.«167639_j48318382080414_2_alg».proof.Proof.Gen.Kernel.Points
import proofs.«167639_j48318382080414_2_alg».proof.Proof.Gen.Kernel.Frame
import proofs.«167639_j48318382080414_2_alg».proof.Proof.Gen.KernelIdeal
import proofs.«167639_j48318382080414_2_alg».proof.Proof.Gen.KernelIdeal.Skeleton
import proofs.«167639_j48318382080414_2_alg».proof.Proof.Gen.KernelIdeal.Launch
import proofs.«167639_j48318382080414_2_alg».proof.Proof.Gen.KernelIdeal.Points
import proofs.«167639_j48318382080414_2_alg».proof.Proof.Gen.KernelIdeal.Frame
import proofs.«167639_j48318382080414_2_alg».proof.Proof.Gen.ReferenceIdeal
import proofs.«167639_j48318382080414_2_alg».proof.Proof.Gen.ReferenceIdeal.Run
import proofs.«167639_j48318382080414_2_alg».proof.Proof.Gen.ReferenceIdeal.Read
import proofs.«167639_j48318382080414_2_alg».proof.Proof.Gen.Pre_finite_inputs
import proofs.«167639_j48318382080414_2_alg».proof.Proof.KernelValue
import proofs.«167639_j48318382080414_2_alg».proof.Proof.Bridge
import Idealize.ShloMosaic.Adequacy
import Idealize.ShloMosaic.Init

noncomputable section

namespace Cert.Proof

open Idealize.ShloMosaic Idealize.SL.Sem

/-- The kernel program as printed runs and keeps its arguments. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel's run ends at its
    closed form of the arguments, the reference's at its last stage, and the two are one function. -/
theorem algebraic : Cert.algebraic_KernelIdeal_ReferenceIdeal := by
  intro m ρ m' ρ' _ hagree
  refine ⟨fun c => Cert.KernelIdeal.Out.KOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v69_eq, a0, a1, a2, a3, a4, a5, a6, a7, a8, a9, a10, a11]
  exact (Cert.Sage.Bridge.out_eq _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
